-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S5x768x768 : Shape := ⟨3, ![5, 768, 768]⟩
abbrev S5x768 : Shape := ⟨2, ![5, 768]⟩
abbrev S768x1536 : Shape := ⟨2, ![768, 1536]⟩
abbrev S768 : Shape := ⟨1, ![768]⟩
abbrev S2x100000 : Shape := ⟨2, ![2, 100000]⟩
abbrev S100000 : Shape := ⟨1, ![100000]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S5x768x768 : S_.BroadcastsInDim S5x768x768 (![] : Fin 0 → Fin S5x768x768.rank)
  reducesTo_S5x768x768_S_d0_1_2 : S5x768x768.ReducesTo [0, 1, 2] S_
  bcast_S_S5x768 : S_.BroadcastsInDim S5x768 (![] : Fin 0 → Fin S5x768.rank)
  reducesTo_S5x768_S_d0_1 : S5x768.ReducesTo [0, 1] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768 .f32) (main_arg6 : FVec F S768 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S100000x768 .f32) (main_arg1 : FVec F S5x768x768 .f32) (main_arg2 : FVec F S5x768 .f32) (main_arg3 : FVec F S768x1536 .f32) (main_arg4 : FVec F S768 .f32) (main_arg5 : FVec F S768 .f32) (main_arg6 : FVec F S768 .f32) (main_arg7 : IVec S2x100000 32) (main_arg8 : IVec S100000 32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S5x768x768 .f32 := Host.absf main_arg1
  let main_cst_0 : FVec F S_ .f32 := constant S_ .f32 0x7F800000#32
  let main_v5 : FVec F S5x768x768 .f32 := broadcastInDim S5x768x768 ![] bcast_S_S5x768x768 main_cst_0
  let main_v6 : IVec S5x768x768 1 := cmpf .olt main_v4 main_v5
  let main_c_1 : IVec S_ 1 := constantI S_ 1 1#1
  let main_v7 : IVec S_ 1 := (fun x v => Host.reduce IntOp.andi x v reducesTo_S5x768x768_S_d0_1_2 h_S_) main_v6 main_c_1
  let main_v8 : IVec S_ 1 := andi main_v3 main_v7
  let main_v9 : FVec F S5x768 .f32 := Host.absf main_arg2
  let main_cst_2 : FVec F S_ .f32 := constant S_ .f32 0x7F800000#32
  let main_v10 : FVec F S5x768 .f32 := broadcastInDim S5x768 ![] bcast_S_S5x768 main_cst_2
  let main_v11 : IVec S5x768 1 := cmpf .olt main_v9 main_v10
  let main_c_3 : IVec S_ 1 := constantI S_ 1 1#1
  let main_v12 : IVec S_ 1 := (fun x v => Host.reduce IntOp.andi x v reducesTo_S5x768_S_d0_1 h_S_) main_v11 main_c_3
  let main_v13 : IVec S_ 1 := andi main_v8 main_v12
  let main_v14 : FVec F S768x1536 .f32 := Host.absf main_arg3
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg4 main_arg5 main_arg6 main_v13 main_v16
-- ==== Kernel.lean ====
abbrev S100000x768 : Shape := ⟨2, ![100000, 768]⟩
abbrev S5x768x768 : Shape := ⟨3, ![5, 768, 768]⟩
abbrev S5x768 : Shape := ⟨2, ![5, 768]⟩
abbrev S768x1536 : Shape := ⟨2, ![768, 1536]⟩
abbrev S768 : Shape := ⟨1, ![768]⟩
abbrev S2x100000 : Shape := ⟨2, ![2, 100000]⟩
abbrev S100000 : Shape := ⟨1, ![100000]⟩
abbrev S1x100000 : Shape := ⟨2, ![1, 100000]⟩
abbrev S_ : Shape := ⟨0, ![]⟩
abbrev S100000x1 : Shape := ⟨2, ![100000, 1]⟩
abbrev S1000x768 : Shape := ⟨2, ![1000, 768]⟩
abbrev S1000x1 : Shape := ⟨2, ![1000, 1]⟩
abbrev S1x768x768 : Shape := ⟨3, ![1, 768, 768]⟩
abbrev S768x768 : Shape := ⟨2, ![768, 768]⟩
abbrev S1x768 : Shape := ⟨2, ![1, 768]⟩
abbrev S400x768 : Shape := ⟨2, ![400, 768]⟩
abbrev S400 : Shape := ⟨1, ![400]⟩
abbrev S400x1 : Shape := ⟨2, ![400, 1]⟩

abbrev nBuf : Space → Nat
  | .hbm => 34
  | .vmem => 20
  | .smem => 0
  | _ => 0

abbrev bufTy : (tb : Table) → Fin (tcTables nBuf tb) → BufTy
  | .hbm, ⟨0, _⟩ => ⟨S100000x768, .f32⟩
  | .hbm, ⟨1, _⟩ => ⟨S5x768x768, .f32⟩
  | .hbm, ⟨2, _⟩ => ⟨S5x768, .f32⟩
  | .hbm, ⟨3, _⟩ => ⟨S768x1536, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S2x100000, .i32⟩
  | .hbm, ⟨8, _⟩ => ⟨S100000, .i32⟩
  | .hbm, ⟨9, _⟩ => ⟨S1x100000, .i32⟩
  | .hbm, ⟨10, _⟩ => ⟨S100000, .i32⟩
  | .hbm, ⟨11, _⟩ => ⟨S1x100000, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x768, .f32⟩
  | .hbm, ⟨22, _⟩ => ⟨S100000x1, .i32⟩
  | .hbm, ⟨23, _⟩ => ⟨S100000x768, .f32⟩
  | .hbm, ⟨24, _⟩ => ⟨S_, .f32⟩
  | .hbm, ⟨25, _⟩ => ⟨S100000x768, .f32⟩
  | .hbm, ⟨26, _⟩ => ⟨S100000x1, .i32⟩
  | .hbm, ⟨27, _⟩ => ⟨S100000x768, .f32⟩
  | .hbm, ⟨28, _⟩ => ⟨S768x768, .f32⟩
  | .hbm, ⟨29, _⟩ => ⟨S768x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S100000x768, .f32⟩
  | .local _ .vmem, ⟨0, _⟩ => ⟨S1000x768, .f32⟩
  | .local _ .vmem, ⟨1, _⟩ => ⟨S1000x768, .f32⟩
  | .local _ .vmem, ⟨2, _⟩ => ⟨S1000x1, .i32⟩
  | .local _ .vmem, ⟨3, _⟩ => ⟨S1000x1, .i32⟩
  | .local _ .vmem, ⟨4, _⟩ => ⟨S5x768x768, .f32⟩
  | .local _ .vmem, ⟨5, _⟩ => ⟨S5x768, .f32⟩
  | .local _ .vmem, ⟨6, _⟩ => ⟨S1000x768, .f32⟩
  | .local _ .vmem, ⟨7, _⟩ => ⟨S1000x768, .f32⟩
  | .local _ .vmem, ⟨8, _⟩ => ⟨S1000x768, .f32⟩
  | .local _ .vmem, ⟨9, _⟩ => ⟨S400x768, .f32⟩
  | .local _ .vmem, ⟨10, _⟩ => ⟨S400x768, .f32⟩
  | .local _ .vmem, ⟨11, _⟩ => ⟨S400x768, .f32⟩
  | .local _ .vmem, ⟨12, _⟩ => ⟨S400x768, .f32⟩
  | .local _ .vmem, ⟨13, _⟩ => ⟨S768x768, .f32⟩
  | .local _ .vmem, ⟨14, _⟩ => ⟨S768x768, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S400x768, .f32⟩
  | .local _ .vmem, ⟨19, _⟩ => ⟨S400x768, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  bitsLt_bf16_f32 : FTy.bits .bf16 < FTy.bits .f32
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S5x768x768_S1x768x768_0_0_0 : ∀ a, (![0, 0, 0] : Fin 3 → Nat) a + S1x768x768.size a ≤ S5x768x768.size a
  h_S1x768x768 : 0 < S1x768x768.numel
  shapeCasts_S1x768x768_S768x768 : S1x768x768.ShapeCasts S768x768
  inb_S5x768_S1x768_0_0 : ∀ a, (![0, 0] : Fin 2 → Nat) a + S1x768.size a ≤ S5x768.size a
  h_S1x768 : 0 < S1x768.numel
  shapeCasts_S1x768_S768 : S1x768.ShapeCasts S768
  shapeCasts_S768_S1x768 : S768.ShapeCasts S1x768
  broadcasts_S1x768_S1000x768 : S1x768.Broadcasts S1000x768
  natLt_1_32 : 1 < 32
  broadcasts_S1000x1_S1000x768 : S1000x1.Broadcasts S1000x768
  inb_S5x768x768_S1x768x768_1_0_0 : ∀ a, (![1, 0, 0] : Fin 3 → Nat) a + S1x768x768.size a ≤ S5x768x768.size a
  inb_S5x768_S1x768_1_0 : ∀ a, (![1, 0] : Fin 2 → Nat) a + S1x768.size a ≤ S5x768.size a
  inb_S5x768x768_S1x768x768_2_0_0 : ∀ a, (![2, 0, 0] : Fin 3 → Nat) a + S1x768x768.size a ≤ S5x768x768.size a
  inb_S5x768_S1x768_2_0 : ∀ a, (![2, 0] : Fin 2 → Nat) a + S1x768.size a ≤ S5x768.size a
  inb_S5x768x768_S1x768x768_3_0_0 : ∀ a, (![3, 0, 0] : Fin 3 → Nat) a + S1x768x768.size a ≤ S5x768x768.size a
  inb_S5x768_S1x768_3_0 : ∀ a, (![3, 0] : Fin 2 → Nat) a + S1x768.size a ≤ S5x768.size a
  inb_S5x768x768_S1x768x768_4_0_0 : ∀ a, (![4, 0, 0] : Fin 3 → Nat) a + S1x768x768.size a ≤ S5x768x768.size a
  inb_S5x768_S1x768_4_0 : ∀ a, (![4, 0] : Fin 2 → Nat) a + S1x768.size a ≤ S5x768.size a
  bcast_S_S100000x768 : S_.BroadcastsInDim S100000x768 (![] : Fin 0 → Fin S100000x768.rank)
  slices_S768x1536_S768x768_0_0 : S768x1536.Slices ![0, 0] S768x768
  slices_S768x1536_S768x768_0_768 : S768x1536.Slices ![0, 768] S768x768
  inb_S400x768_S400x768_0_0 : ∀ a, (![0, 0] : Fin 2 → Nat) a + S400x768.size a ≤ S400x768.size a
  h_S400x768 : 0 < S400x768.numel
  shapeCasts_S400x768_S400x768 : S400x768.ShapeCasts S400x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  shapeCasts_S1x768_S1x768 : S1x768.ShapeCasts S1x768
  broadcasts_S1x768_S400x768 : S1x768.Broadcasts S400x768
  reduces_S400x768_S400 : S400x768.Reduces [1] S400
  shapeCasts_S400_S400x1 : S400.ShapeCasts S400x1
  broadcasts_S400x1_S400x768 : S400x1.Broadcasts S400x768
  gather_S100000x768_S100000x1_S100000x768_1_0_n_n_0_1_1768_wf : GatherDims.WF S100000x768 S100000x1 S100000x768 [1] [0] [] [0] [] 1 ![1, 768]
  dot_S1000x768_S768x768_S1000x768_1_1_0_0_n_n_wf : DotDims.WF S1000x768 S768x768 S1000x768 [1] [1] [0] [0] [] []
  scatter_S100000x768_S100000x1_S100000x768_1_0_0_1_wf : ScatterDims.WF S100000x768 S100000x1 S100000x768 [1] [0] [0] 1
  dot_S400x768_S768x768_S400x768_1_1_0_0_n_n_wf : DotDims.WF S400x768 S768x768 S400x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S100000x768.size a
  hwx0_0 : ∀ i : grid0.Coords, EltTy.bits .f32 = 32 ∨ (Rect.block (s := S100000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .i32 = 32 ∨ (Rect.block (s := S100000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x768x768.size a ≤ S5x768x768.size a
  hwx0_2 : ∀ i : grid0.Coords, EltTy.bits .f32 = 32 ∨ (Rect.block (s := S5x768x768) S5x768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x768.size a ≤ S5x768.size a
  hwx0_3 : ∀ i : grid0.Coords, EltTy.bits .f32 = 32 ∨ (Rect.block (s := S5x768) S5x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x768.size a ≤ S100000x768.size a
  hwx0_4 : ∀ i : grid0.Coords, EltTy.bits .f32 = 32 ∨ (Rect.block (s := S100000x768) S1000x768.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x768.size a ≤ S100000x768.size a
  hwx1_0 : ∀ i : grid1.Coords, EltTy.bits .f32 = 32 ∨ (Rect.block (s := S100000x768) S400x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x768.size a ≤ S100000x768.size a
  hwx1_1 : ∀ i : grid1.Coords, EltTy.bits .f32 = 32 ∨ (Rect.block (s := S100000x768) S400x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .f32 = 32 ∨ (Rect.block (s := S768x768) S768x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x768.size a ≤ S1x768.size a
  hwx1_6 : ∀ i : grid1.Coords, EltTy.bits .f32 = 32 ∨ (Rect.block (s := S1x768) S1x768.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x768.size a ≤ S100000x768.size a
  hwx1_7 : ∀ i : grid1.Coords, EltTy.bits .f32 = 32 ∨ (Rect.block (s := S100000x768) S400x768.size (cc1_transform_7 i) (hinb1_7 i)).WholeWords (EltTy.packing .f32)

variable [Facts₀]

def gather_S100000x768_S100000x1_S100000x768_1_0_n_n_0_1_1768 : GatherDims S100000x768 S100000x1 S100000x768 where
  offsetDims := [1]
  collapsedSliceDims := [0]
  operandBatchingDims := []
  startIndicesBatchingDims := []
  startIndexMap := [0]
  indexVectorDim := 1
  sliceSizes := ![1, 768]
  wf := gather_S100000x768_S100000x1_S100000x768_1_0_n_n_0_1_1768_wf
def dot_S1000x768_S768x768_S1000x768_1_1_0_0_n_n : DotDims S1000x768 S768x768 S1000x768 where
  lhsContracting := [1]
  rhsContracting := [1]
  lhsNonContracting := [0]
  rhsNonContracting := [0]
  lhsBatch := []
  rhsBatch := []
  wf := dot_S1000x768_S768x768_S1000x768_1_1_0_0_n_n_wf
def scatter_S100000x768_S100000x1_S100000x768_1_0_0_1 : ScatterDims S100000x768 S100000x1 S100000x768 where
  updateWindowDims := [1]
  insertedWindowDims := [0]
  scatterDimsToOperandDims := [0]
  indexVectorDim := 1
  wf := scatter_S100000x768_S100000x1_S100000x768_1_0_0_1_wf
def dot_S400x768_S768x768_S400x768_1_1_0_0_n_n : DotDims S400x768 S768x768 S400x768 where
  lhsContracting := [1]
  rhsContracting := [1]
  lhsNonContracting := [0]
  rhsNonContracting := [0]
  lhsBatch := []
  rhsBatch := []
  wf := dot_S400x768_S768x768_S400x768_1_1_0_0_n_n_wf

abbrev win0_0 : Pipeline.Window sig grid0 :=
  Pipeline.Window.ofSpec (Memref.whole main_v10) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1000x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S400x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S400x768.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x768 : Shape := ⟨2, ![100000, 768]⟩
abbrev S5x768x768 : Shape := ⟨3, ![5, 768, 768]⟩
abbrev S5x768 : Shape := ⟨2, ![5, 768]⟩
abbrev S768x1536 : Shape := ⟨2, ![768, 1536]⟩
abbrev S768 : Shape := ⟨1, ![768]⟩
abbrev S2x100000 : Shape := ⟨2, ![2, 100000]⟩
abbrev S100000 : Shape := ⟨1, ![100000]⟩
abbrev S1x100000 : Shape := ⟨2, ![1, 100000]⟩
abbrev S_ : Shape := ⟨0, ![]⟩
abbrev S100000x1 : Shape := ⟨2, ![100000, 1]⟩
abbrev S1x768x768 : Shape := ⟨3, ![1, 768, 768]⟩
abbrev S768x768 : Shape := ⟨2, ![768, 768]⟩
abbrev S1x768 : Shape := ⟨2, ![1, 768]⟩
abbrev S100000x1536 : Shape := ⟨2, ![100000, 1536]⟩
abbrev S1536x768 : Shape := ⟨2, ![1536, 768]⟩

abbrev nBuf : Space → Nat
  | .hbm => 167
  | .vmem => 0
  | .smem => 0
  | _ => 0

abbrev hbmTy0_0 (i : Nat) : BufTy := match i % 128 with
  | 0 => ⟨S100000x768, .f32⟩
  | 1 => ⟨S5x768x768, .f32⟩
  | 2 => ⟨S5x768, .f32⟩
  | 3 => ⟨S768x1536, .f32⟩
  | 4 => ⟨S768, .f32⟩
  | 5 => ⟨S768, .f32⟩
  | 6 => ⟨S768, .f32⟩
  | 7 => ⟨S2x100000, .i32⟩
  | 8 => ⟨S100000, .i32⟩
  | 9 => ⟨S1x100000, .i32⟩
  | 10 => ⟨S100000, .i32⟩
  | 11 => ⟨S1x100000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x768, .f32⟩
  | 22 => ⟨S_, .f32⟩
  | 23 => ⟨S100000x768, .f32⟩
  | 24 => ⟨S_, .i32⟩
  | 25 => ⟨S100000, .i32⟩
  | 26 => ⟨S100000, .i1⟩
  | 27 => ⟨S100000, .f32⟩
  | 28 => ⟨S100000x1, .f32⟩
  | 29 => ⟨S1x768x768, .f32⟩
  | 30 => ⟨S768x768, .f32⟩
  | 31 => ⟨S768x768, .f32⟩
  | 32 => ⟨S100000x768, .f32⟩
  | 33 => ⟨S1x768, .f32⟩
  | 34 => ⟨S768, .f32⟩
  | 35 => ⟨S1x768, .f32⟩
  | 36 => ⟨S100000x768, .f32⟩
  | 37 => ⟨S100000x768, .f32⟩
  | 38 => ⟨S100000x768, .f32⟩
  | 39 => ⟨S100000x768, .f32⟩
  | 40 => ⟨S100000x768, .f32⟩
  | 41 => ⟨S_, .i32⟩
  | 42 => ⟨S100000, .i32⟩
  | 43 => ⟨S100000, .i1⟩
  | 44 => ⟨S100000, .f32⟩
  | 45 => ⟨S100000x1, .f32⟩
  | 46 => ⟨S1x768x768, .f32⟩
  | 47 => ⟨S768x768, .f32⟩
  | 48 => ⟨S768x768, .f32⟩
  | 49 => ⟨S100000x768, .f32⟩
  | 50 => ⟨S1x768, .f32⟩
  | 51 => ⟨S768, .f32⟩
  | 52 => ⟨S1x768, .f32⟩
  | 53 => ⟨S100000x768, .f32⟩
  | 54 => ⟨S100000x768, .f32⟩
  | 55 => ⟨S100000x768, .f32⟩
  | 56 => ⟨S100000x768, .f32⟩
  | 57 => ⟨S100000x768, .f32⟩
  | 58 => ⟨S_, .i32⟩
  | 59 => ⟨S100000, .i32⟩
  | 60 => ⟨S100000, .i1⟩
  | 61 => ⟨S100000, .f32⟩
  | 62 => ⟨S100000x1, .f32⟩
  | 63 => ⟨S1x768x768, .f32⟩
  | 64 => ⟨S768x768, .f32⟩
  | 65 => ⟨S768x768, .f32⟩
  | 66 => ⟨S100000x768, .f32⟩
  | 67 => ⟨S1x768, .f32⟩
  | 68 => ⟨S768, .f32⟩
  | 69 => ⟨S1x768, .f32⟩
  | 70 => ⟨S100000x768, .f32⟩
  | 71 => ⟨S100000x768, .f32⟩
  | 72 => ⟨S100000x768, .f32⟩
  | 73 => ⟨S100000x768, .f32⟩
  | 74 => ⟨S100000x768, .f32⟩
  | 75 => ⟨S_, .i32⟩
  | 76 => ⟨S100000, .i32⟩
  | 77 => ⟨S100000, .i1⟩
  | 78 => ⟨S100000, .f32⟩
  | 79 => ⟨S100000x1, .f32⟩
  | 80 => ⟨S1x768x768, .f32⟩
  | 81 => ⟨S768x768, .f32⟩
  | 82 => ⟨S768x768, .f32⟩
  | 83 => ⟨S100000x768, .f32⟩
  | 84 => ⟨S1x768, .f32⟩
  | 85 => ⟨S768, .f32⟩
  | 86 => ⟨S1x768, .f32⟩
  | 87 => ⟨S100000x768, .f32⟩
  | 88 => ⟨S100000x768, .f32⟩
  | 89 => ⟨S100000x768, .f32⟩
  | 90 => ⟨S100000x768, .f32⟩
  | 91 => ⟨S100000x768, .f32⟩
  | 92 => ⟨S_, .i32⟩
  | 93 => ⟨S100000, .i32⟩
  | 94 => ⟨S100000, .i1⟩
  | 95 => ⟨S100000, .f32⟩
  | 96 => ⟨S100000x1, .f32⟩
  | 97 => ⟨S1x768x768, .f32⟩
  | 98 => ⟨S768x768, .f32⟩
  | 99 => ⟨S768x768, .f32⟩
  | 100 => ⟨S100000x768, .f32⟩
  | 101 => ⟨S1x768, .f32⟩
  | 102 => ⟨S768, .f32⟩
  | 103 => ⟨S1x768, .f32⟩
  | 104 => ⟨S100000x768, .f32⟩
  | 105 => ⟨S100000x768, .f32⟩
  | 106 => ⟨S100000x768, .f32⟩
  | 107 => ⟨S100000x768, .f32⟩
  | 108 => ⟨S100000x768, .f32⟩
  | 109 => ⟨S_, .f32⟩
  | 110 => ⟨S100000x768, .f32⟩
  | 111 => ⟨S100000x1, .i32⟩
  | 112 => ⟨S100000x768, .f32⟩
  | 113 => ⟨S100000x1536, .f32⟩
  | 114 => ⟨S1536x768, .f32⟩
  | 115 => ⟨S100000x768, .f32⟩
  | 116 => ⟨S1x768, .f32⟩
  | 117 => ⟨S100000x768, .f32⟩
  | 118 => ⟨S100000x768, .f32⟩
  | 119 => ⟨S_, .f32⟩
  | 120 => ⟨S100000x768, .f32⟩
  | 121 => ⟨S100000x768, .f32⟩
  | 122 => ⟨S100000x768, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x768, .f32⟩

abbrev hbmTy0_1 (i : Nat) : BufTy := match i % 128 with
  | 0 => ⟨S100000x1, .f32⟩
  | 1 => ⟨S_, .i32⟩
  | 2 => ⟨S_, .f32⟩
  | 3 => ⟨S100000, .f32⟩
  | 4 => ⟨S100000x1, .f32⟩
  | 5 => ⟨S_, .f32⟩
  | 6 => ⟨S100000x1, .f32⟩
  | 7 => ⟨S100000x1, .f32⟩
  | 8 => ⟨S100000x768, .f32⟩
  | 9 => ⟨S100000x768, .f32⟩
  | 10 => ⟨S100000x768, .f32⟩
  | 11 => ⟨S_, .f32⟩
  | 12 => ⟨S_, .f32⟩
  | 13 => ⟨S_, .f32⟩
  | 14 => ⟨S_, .f32⟩
  | 15 => ⟨S100000, .f32⟩
  | 16 => ⟨S100000x1, .f32⟩
  | 17 => ⟨S100000x1, .f32⟩
  | 18 => ⟨S100000x1, .f32⟩
  | 19 => ⟨S_, .f32⟩
  | 20 => ⟨S_, .i1⟩
  | 21 => ⟨S_, .f32⟩
  | 22 => ⟨S_, .f32⟩
  | 23 => ⟨S100000x1, .f32⟩
  | 24 => ⟨S100000x1, .f32⟩
  | 25 => ⟨S100000x768, .f32⟩
  | 26 => ⟨S100000x768, .f32⟩
  | 27 => ⟨S_, .f32⟩
  | 28 => ⟨S100000x1, .f32⟩
  | 29 => ⟨S100000x1, .f32⟩
  | 30 => ⟨S100000x1, .f32⟩
  | 31 => ⟨S100000x768, .f32⟩
  | 32 => ⟨S100000x768, .f32⟩
  | 33 => ⟨S1x768, .f32⟩
  | 34 => ⟨S100000x768, .f32⟩
  | 35 => ⟨S100000x768, .f32⟩
  | 36 => ⟨S1x768, .f32⟩
  | 37 => ⟨S100000x768, .f32⟩
  | 38 => ⟨S100000x768, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_5 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_6 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_call0_cst : Ref sig .tc := ⟨.hbm, 119, rfl⟩
abbrev main_call0_v0 : Ref sig .tc := ⟨.hbm, 120, rfl⟩
abbrev main_v101 : Ref sig .tc := ⟨.hbm, 121, rfl⟩
abbrev main_v102 : Ref sig .tc := ⟨.hbm, 122, rfl⟩
abbrev main_cst_7 : Ref sig .tc := ⟨.hbm, 123, rfl⟩
abbrev main_v103 : Ref sig .tc := ⟨.hbm, 124, rfl⟩
abbrev main_v104 : Ref sig .tc := ⟨.hbm, 125, rfl⟩
abbrev main_cst_8 : Ref sig .tc := ⟨.hbm, 126, rfl⟩
abbrev main_v105 : Ref sig .tc := ⟨.hbm, 127, rfl⟩
abbrev main_v106 : Ref sig .tc := ⟨.hbm, 128, rfl⟩
abbrev main_c_9 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_v12 : Ref sig .tc := ⟨.hbm, 146, rfl⟩
abbrev main_call1_cst_3 : Ref sig .tc := ⟨.hbm, 147, rfl⟩
abbrev main_call1_v13 : Ref sig .tc := ⟨.hbm, 148, rfl⟩
abbrev main_call1_cst_4 : Ref sig .tc := ⟨.hbm, 149, rfl⟩
abbrev main_call1_call0_v0 : Ref sig .tc := ⟨.hbm, 150, rfl⟩
abbrev main_call1_call0_v1 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_10 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x768 : S_.BroadcastsInDim S100000x768 (![] : Fin 0 → Fin S100000x768.rank)
  slices_S5x768x768_S1x768x768_0_0_0 : S5x768x768.Slices ![0, 0, 0] S1x768x768
  shapeCasts_S1x768x768_S768x768 : S1x768x768.ShapeCasts S768x768
  transposes_S768x768_S768x768_1_0 : S768x768.Transposes [1, 0] S768x768
  slices_S5x768_S1x768_0_0 : S5x768.Slices ![0, 0] S1x768
  shapeCasts_S1x768_S768 : S1x768.ShapeCasts S768
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  bcast_S100000x1_S100000x768_0_1 : S100000x1.BroadcastsInDim S100000x768 (![0, 1] : Fin 2 → Fin S100000x768.rank)
  slices_S5x768x768_S1x768x768_1_0_0 : S5x768x768.Slices ![1, 0, 0] S1x768x768
  slices_S5x768_S1x768_1_0 : S5x768.Slices ![1, 0] S1x768
  slices_S5x768x768_S1x768x768_2_0_0 : S5x768x768.Slices ![2, 0, 0] S1x768x768
  slices_S5x768_S1x768_2_0 : S5x768.Slices ![2, 0] S1x768
  slices_S5x768x768_S1x768x768_3_0_0 : S5x768x768.Slices ![3, 0, 0] S1x768x768
  slices_S5x768_S1x768_3_0 : S5x768.Slices ![3, 0] S1x768
  slices_S5x768x768_S1x768x768_4_0_0 : S5x768x768.Slices ![4, 0, 0] S1x768x768
  slices_S5x768_S1x768_4_0 : S5x768.Slices ![4, 0] S1x768
  concatenates_S100000x768_S100000x768_S100000x1536_d1 : Shape.Concatenates [S100000x768, S100000x768] S100000x1536 1
  transposes_S768x1536_S1536x768_1_0 : S768x1536.Transposes [1, 0] S1536x768
  reducesTo_S100000x768_S100000_d1 : S100000x768.ReducesTo [1] S100000
  h_S_ : 0 < S_.numel
  bcast_S_S100000x1 : S_.BroadcastsInDim S100000x1 (![] : Fin 0 → Fin S100000x1.rank)
  gather_S100000x768_S100000x1_S100000x768_1_0_n_n_0_1_1768_wf : GatherDims.WF S100000x768 S100000x1 S100000x768 [1] [0] [] [0] [] 1 ![1, 768]
  dot_S100000x768_S768x768_S100000x768_1_0_0_1_n_n_wf : DotDims.WF S100000x768 S768x768 S100000x768 [1] [0] [0] [1] [] []
  scatter_S100000x768_S100000x1_S100000x768_1_0_0_1_wf : ScatterDims.WF S100000x768 S100000x1 S100000x768 [1] [0] [0] 1
  dot_S100000x1536_S1536x768_S100000x768_1_0_0_1_n_n_wf : DotDims.WF S100000x1536 S1536x768 S100000x768 [1] [0] [0] [1] [] []

variable [Facts₀]

def gather_S100000x768_S100000x1_S100000x768_1_0_n_n_0_1_1768 : GatherDims S100000x768 S100000x1 S100000x768 where
  offsetDims := [1]
  collapsedSliceDims := [0]
  operandBatchingDims := []
  startIndicesBatchingDims := []
  startIndexMap := [0]
  indexVectorDim := 1
  sliceSizes := ![1, 768]
  wf := gather_S100000x768_S100000x1_S100000x768_1_0_n_n_0_1_1768_wf
def dot_S100000x768_S768x768_S100000x768_1_0_0_1_n_n : DotDims S100000x768 S768x768 S100000x768 where
  lhsContracting := [1]
  rhsContracting := [0]
  lhsNonContracting := [0]
  rhsNonContracting := [1]
  lhsBatch := []
  rhsBatch := []
  wf := dot_S100000x768_S768x768_S100000x768_1_0_0_1_n_n_wf
def scatter_S100000x768_S100000x1_S100000x768_1_0_0_1 : ScatterDims S100000x768 S100000x1 S100000x768 where
  updateWindowDims := [1]
  insertedWindowDims := [0]
  scatterDimsToOperandDims := [0]
  indexVectorDim := 1
  wf := scatter_S100000x768_S100000x1_S100000x768_1_0_0_1_wf
def dot_S100000x1536_S1536x768_S100000x768_1_0_0_1_n_n : DotDims S100000x1536 S1536x768 S100000x768 where
  lhsContracting := [1]
  rhsContracting := [0]
  lhsNonContracting := [0]
  rhsNonContracting := [1]
  lhsBatch := []
  rhsBatch := []
  wf := dot_S100000x1536_S1536x768_S100000x768_1_0_0_1_n_n_wf

class Facts : Prop extends Facts₀ where

variable [Facts]
-- ==== Proof.KStages.lean ====
/-
  The idealized kernel program's value, stage by stage, as pure functions of its argument arrays.

  The program is: a row gather of the node features by the (wrapped) source indices; a first tiled region that,
  on each block of 1000 edges, adds up over the five relation types t the masked affine message
  (x · W_tᵀ + b_t) · [type = t]; a scatter-add of the messages into the target nodes; a second tiled region
  that, on each block of 400 nodes, forms the two-matrix update, its positive part, the residual sum and the
  row-wise normalisation.  Each region's result is stated as the array whose block is the region body's
  one function (`pay0`, `pay1`) of the corresponding blocks of its inputs.
-/
import proofs.«147601_j867583393905_2_alg».proof.Proof.Gen.KernelIdeal.Skeleton
import Idealize.ShloMosaic.Lib.ValueIdx
import Idealize.ShloMosaic.Lib.Pipeline.Value

noncomputable section

namespace Cert.KernelIdeal.Stages

open Idealize.ShloMosaic Idealize.ShloMosaic.ValueIdx Cert.KernelIdeal
open Cert.KernelIdeal.Facts₀

variable {F : FTy → Type} [FloatOps F]

/-! ## The two region bodies as functions of their input blocks -/

/-- The first region's body on one block: the accumulator starts at zero and takes, relation type by relation
    type (0 to 4, in this order), the masked affine message of the block's rows; the block's result is the
    accumulator after the fifth. -/
def pay0 (x0 : Vec F S1000x768 .f32) (x1 : Vec F S1000x1 .i32) (x2 : Vec F S5x768x768 .f32) (x3 : Vec F S5x768 .f32) :
    Vec F S1000x768 .f32 :=
  Gen.k0_pay11 (Gen.k0_pay2 x0) (Gen.k0_pay3 x1)
    (View.ld x2 (Rect.unit (s := S5x768x768) ![4, 0, 0] S1x768x768.size inb_S5x768x768_S1x768x768_4_0_0))
    (View.ld x3 (Rect.unit (s := S5x768) ![4, 0] S1x768.size inb_S5x768_S1x768_4_0))
    (Gen.k0_pay10 (Gen.k0_pay2 x0) (Gen.k0_pay3 x1)
      (Gen.k0_pay9 (View.ld x2 (Rect.unit (s := S5x768x768) ![3, 0, 0] S1x768x768.size inb_S5x768x768_S1x768x768_3_0_0)))
      (View.ld x3 (Rect.unit (s := S5x768) ![3, 0] S1x768.size inb_S5x768_S1x768_3_0))
      (Gen.k0_pay8 (Gen.k0_pay2 x0) (Gen.k0_pay3 x1)
        (View.ld x2 (Rect.unit (s := S5x768x768) ![2, 0, 0] S1x768x768.size inb_S5x768x768_S1x768x768_2_0_0))
        (View.ld x3 (Rect.unit (s := S5x768) ![2, 0] S1x768.size inb_S5x768_S1x768_2_0))
        (Gen.k0_pay7 (Gen.k0_pay2 x0) (Gen.k0_pay3 x1)
          (Gen.k0_pay5 (View.ld x2 (Rect.unit (s := S5x768x768) ![1, 0, 0] S1x768x768.size inb_S5x768x768_S1x768x768_1_0_0)))
          (Gen.k0_pay6 (View.ld x3 (Rect.unit (s := S5x768) ![1, 0] S1x768.size inb_S5x768_S1x768_1_0)))
          (Gen.k0_pay4 x0 x1
            (View.ld x2 (Rect.unit (s := S5x768x768) ![0, 0, 0] S1x768x768.size inb_S5x768x768_S1x768x768_0_0_0))
            (View.ld x3 (Rect.unit (s := S5x768) ![0, 0] S1x768.size inb_S5x768_S1x768_0_0))
            Gen.k0_pay1))))

/-- The second region's body on one block of nodes: normalised rows times the scale row plus the shift row. -/
def pay1 (x0 x1 : Vec F S400x768 .f32) (x2 x3 : Vec F S768x768 .f32) (x4 x5 x6 : Vec F S1x768 .f32) :
    Vec F S400x768 .f32 :=
  Gen.k1_pay1 (Gen.k1_pay2 x0 x1 x2 x3 x4) (Gen.k1_pay3 x5) x6

/-! ## Row blocks of a tall array -/

/-- Rows 1000·t … 1000·t + 999 of a 100000-row array of width 768. -/
def rows1000 {e : EltTy} (X : S100000x768.Idx → Elt F e) (t : Fin 100) : S1000x768.Idx → Elt F e :=
  fun y => X (ix2 (n0 := 100000) (n1 := 768) ⟨1000 * t.val + (y 0).val, by have := idx2_lt0 (n0 := 1000) (n1 := 768) y; omega⟩ (y 1))

/-- The same rows of a 100000-row column. -/
def col1000 {e : EltTy} (X : S100000x1.Idx → Elt F e) (t : Fin 100) : S1000x1.Idx → Elt F e :=
  fun y => X (ix2 (n0 := 100000) (n1 := 1) ⟨1000 * t.val + (y 0).val, by have := idx2_lt0 (n0 := 1000) (n1 := 1) y; omega⟩ (y 1))

/-- Rows 400·t … 400·t + 399 of a 100000-row array of width 768. -/
def rows400 {e : EltTy} (X : S100000x768.Idx → Elt F e) (t : Fin 250) : S400x768.Idx → Elt F e :=
  fun y => X (ix2 (n0 := 100000) (n1 := 768) ⟨400 * t.val + (y 0).val, by have := idx2_lt0 (n0 := 400) (n1 := 768) y; omega⟩ (y 1))

/-! ## The two regions' arrays -/

/-- The first region's array: block t (1000 edges) is the body's result on block t of the gathered rows and of
    the type column and on the whole weight and bias tables. -/
def G0 (X : Vec F S100000x768 .f32) (TY : Vec F S100000x1 .i32) (W : Vec F S5x768x768 .f32) (B : Vec F S5x768 .f32) :
    Vec F S100000x768 .f32 :=
  fun i => pay0 (rows1000 (e := .f32) X ⟨(i 0).val / 1000, by have := idx2_lt0 (n0 := 100000) (n1 := 768) i; omega⟩)
      (col1000 (e := .i32) TY ⟨(i 0).val / 1000, by have := idx2_lt0 (n0 := 100000) (n1 := 768) i; omega⟩) W B
      (ix2 (n0 := 1000) (n1 := 768) ⟨(i 0).val % 1000, Nat.mod_lt _ (by norm_num)⟩ (i 1))

/-- The second region's array: block t (400 nodes) is the body's result on block t of the node features and of the
    aggregated messages and on the whole of the two weight halves and the three rows. -/
def G1 (NF AG : Vec F S100000x768 .f32) (W1 W2 : Vec F S768x768 .f32) (b g be : Vec F S1x768 .f32) :
    Vec F S100000x768 .f32 :=
  fun i => pay1 (rows400 (e := .f32) NF ⟨(i 0).val / 400, by have := idx2_lt0 (n0 := 100000) (n1 := 768) i; omega⟩)
      (rows400 (e := .f32) AG ⟨(i 0).val / 400, by have := idx2_lt0 (n0 := 100000) (n1 := 768) i; omega⟩) W1 W2 b g be
      (ix2 (n0 := 400) (n1 := 768) ⟨(i 0).val % 400, Nat.mod_lt _ (by norm_num)⟩ (i 1))

/-! ## The host operations around the regions -/

/-- One row of the edge table, as a flat array. -/
def edgeRow (r : Nat) (h : S2x100000.Slices ![r, 0] S1x100000) (a7 : Vec F S2x100000 .i32) : Vec F S100000 .i32 :=
  shapeCast S100000 (extractStridedSlice S1x100000 ![r, 0] a7 h) shapeCasts_S1x100000_S100000

/-- The source indices, a negative one wrapped by the number of nodes, as a column of start indices. -/
def srcIdx (a7 : Vec F S2x100000 .i32) : Vec F S100000x1 .i32 :=
  broadcastInDim S100000x1 ![0] bcast_S100000_S100000x1_0
    (select (cmpi .slt (edgeRow 0 slices_S2x100000_S1x100000_0_0 a7) (broadcastInDim S100000 ![] bcast_S_S100000 (constantI S_ 32 0#32)))
      (addi (edgeRow 0 slices_S2x100000_S1x100000_0_0 a7) (broadcastInDim S100000 ![] bcast_S_S100000 (constantI S_ 32 100000#32)))
      (edgeRow 0 slices_S2x100000_S1x100000_0_0 a7))

/-- The node features' rows at the source indices. -/
def srcRows (a0 : Vec F S100000x768 .f32) (a7 : Vec F S2x100000 .i32) : Vec F S100000x768 .f32 :=
  Host.gather gather_S100000x768_S100000x1_S100000x768_1_0_n_n_0_1_1768 a0 (srcIdx a7)

/-- The edge types as a column. -/
def tyCol (a8 : Vec F S100000 .i32) : Vec F S100000x1 .i32 :=
  shapeCast S100000x1 a8 shapeCasts_S100000_S100000x1

/-- The target indices as a column of start indices. -/
def tgtIdx (a7 : Vec F S2x100000 .i32) : Vec F S100000x1 .i32 :=
  broadcastInDim S100000x1 ![0] bcast_S100000_S100000x1_0 (edgeRow 1 slices_S2x100000_S1x100000_1_0 a7)

/-- The messages added up at their target nodes, from zero. -/
def aggK (msgs : Vec F S100000x768 .f32) (a7 : Vec F S2x100000 .i32) : Vec F S100000x768 .f32 :=
  Host.scatterAdd scatter_S100000x768_S100000x1_S100000x768_1_0_0_1
    (broadcastInDim S100000x768 ![] bcast_S_S100000x768 (constant S_ .f32 0x00000000#32)) (tgtIdx a7) msgs

/-- The update matrix's left half (acting on the node features) and right half (on the aggregated messages). -/
def w1K (a3 : Vec F S768x1536 .f32) : Vec F S768x768 .f32 :=
  extractStridedSlice S768x768 ![0, 0] a3 slices_S768x1536_S768x768_0_0
def w2K (a3 : Vec F S768x1536 .f32) : Vec F S768x768 .f32 :=
  extractStridedSlice S768x768 ![0, 768] a3 slices_S768x1536_S768x768_0_768

/-- A vector of length 768 as one row. -/
def rowK (a : Vec F S768 .f32) : Vec F S1x768 .f32 :=
  shapeCast S1x768 a shapeCasts_S768_S1x768

/-- The program's result as a function of its nine argument arrays. -/
def outK (a0 : Vec F S100000x768 .f32) (a1 : Vec F S5x768x768 .f32) (a2 : Vec F S5x768 .f32) (a3 : Vec F S768x1536 .f32)
    (a4 a5 a6 : Vec F S768 .f32) (a7 : Vec F S2x100000 .i32) (a8 : Vec F S100000 .i32) : Vec F S100000x768 .f32 :=
  G1 a0 (aggK (G0 (srcRows a0 a7) (tyCol a8) a1 a2) a7) (w1K a3) (w2K a3) (rowK a4) (rowK a5) (rowK a6)

end Cert.KernelIdeal.Stages

end
-- ==== Proof.KRun.RunValue.lean ====
/- The kernel program's run from the launch to the return, with the RESULT array in the post: the final
   state holds, at the result buffer, the last boundary's contents there (the fold of the program's
   segments from the launch memory), and every argument array as launched. -/
import proofs.«147601_j867583393905_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main on the TensorCores terminates, and every final state has the result
    buffer at the last boundary's contents and the argument arrays as launched. -/
theorem run_value : θ_run defs (onTc (τ := τ) (main (F := F))) ⟨m, fun _ => 0, ρ⟩ (fun r => ∀ c : Dev nD,
      r.2.mem ((c.tc : Thread nD τ).loc main_v21) = Gen.W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.KRun.HostOps.lean ====
/- The host operations around the two regions, read at the buffers the regions take: from ANY contents W of the
   core's buffers, what each stretch of host operations leaves at a buffer is the operations' term of W at the
   buffers they read, and W itself at a buffer they do not write. -/
import proofs.«147601_j867583393905_2_alg».proof.Proof.Gen.KernelIdeal.Frame
import proofs.«147601_j867583393905_2_alg».proof.Proof.KStages

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages

variable {F : FTy → Type} [FloatOps F]

variable (W : Valuation τ sig (Elt F))

/-! ## The stretch before the first region -/

/-- The gathered rows: the node features at the wrapped source indices. -/
theorem host0_v10 : StableHlo.after hostOps0 W (Proc.devRef .tc main_v10)
    = srcRows (F := F) (W (Proc.devRef .tc main_arg0)) (W (Proc.devRef .tc main_arg7)) := by
  dsimp only [hostOps0]
  after_results
  rfl

/-- The edge types as a column. -/
theorem host0_v11 : StableHlo.after hostOps0 W (Proc.devRef .tc main_v11)
    = tyCol (F := F) (W (Proc.devRef .tc main_arg8)) := by
  dsimp only [hostOps0]
  after_results
  rfl

/-- The target row of the edge table, flat. -/
theorem host0_v3 : StableHlo.after hostOps0 W (Proc.devRef .tc main_v3)
    = edgeRow (F := F) 1 slices_S2x100000_S1x100000_1_0 (W (Proc.devRef .tc main_arg7)) := by
  dsimp only [hostOps0]
  after_results
  rfl

/-- The stretch writes no argument the regions or the later stretch read. -/
theorem host0_arg0 : StableHlo.after hostOps0 W (Proc.devRef .tc main_arg0) = W (Proc.devRef .tc main_arg0) := by
  dsimp only [hostOps0]; after_results
theorem host0_arg1 : StableHlo.after hostOps0 W (Proc.devRef .tc main_arg1) = W (Proc.devRef .tc main_arg1) := by
  dsimp only [hostOps0]; after_results
theorem host0_arg2 : StableHlo.after hostOps0 W (Proc.devRef .tc main_arg2) = W (Proc.devRef .tc main_arg2) := by
  dsimp only [hostOps0]; after_results
theorem host0_arg3 : StableHlo.after hostOps0 W (Proc.devRef .tc main_arg3) = W (Proc.devRef .tc main_arg3) := by
  dsimp only [hostOps0]; after_results
theorem host0_arg4 : StableHlo.after hostOps0 W (Proc.devRef .tc main_arg4) = W (Proc.devRef .tc main_arg4) := by
  dsimp only [hostOps0]; after_results
theorem host0_arg5 : StableHlo.after hostOps0 W (Proc.devRef .tc main_arg5) = W (Proc.devRef .tc main_arg5) := by
  dsimp only [hostOps0]; after_results
theorem host0_arg6 : StableHlo.after hostOps0 W (Proc.devRef .tc main_arg6) = W (Proc.devRef .tc main_arg6) := by
  dsimp only [hostOps0]; after_results

/-! ## The stretch between the regions -/

/-- The aggregated messages: the first region's array scatter-added, from zero, at the target column. -/
theorem host1_v15 : StableHlo.after hostOps1 W (Proc.devRef .tc main_v15)
    = Host.scatterAdd (F := F) scatter_S100000x768_S100000x1_S100000x768_1_0_0_1
        (broadcastInDim S100000x768 ![] bcast_S_S100000x768 (constant (F := F) S_ .f32 0x00000000#32))
        (broadcastInDim S100000x1 ![0] bcast_S100000_S100000x1_0 (W (Proc.devRef .tc main_v3)))
        (W (Proc.devRef .tc main_v12)) := by
  dsimp only [hostOps1]
  after_results

theorem host1_v16 : StableHlo.after hostOps1 W (Proc.devRef .tc main_v16) = w1K (F := F) (W (Proc.devRef .tc main_arg3)) := by
  dsimp only [hostOps1]
  after_results
  rfl

theorem host1_v17 : StableHlo.after hostOps1 W (Proc.devRef .tc main_v17) = w2K (F := F) (W (Proc.devRef .tc main_arg3)) := by
  dsimp only [hostOps1]
  after_results
  rfl

theorem host1_v18 : StableHlo.after hostOps1 W (Proc.devRef .tc main_v18) = rowK (F := F) (W (Proc.devRef .tc main_arg4)) := by
  dsimp only [hostOps1]
  after_results
  rfl

theorem host1_v19 : StableHlo.after hostOps1 W (Proc.devRef .tc main_v19) = rowK (F := F) (W (Proc.devRef .tc main_arg5)) := by
  dsimp only [hostOps1]
  after_results
  rfl

theorem host1_v20 : StableHlo.after hostOps1 W (Proc.devRef .tc main_v20) = rowK (F := F) (W (Proc.devRef .tc main_arg6)) := by
  dsimp only [hostOps1]
  after_results
  rfl

theorem host1_arg0 : StableHlo.after hostOps1 W (Proc.devRef .tc main_arg0) = W (Proc.devRef .tc main_arg0) := by
  dsimp only [hostOps1]; after_results

end Cert.KernelIdeal.KRun

end
-- ==== Proof.KRun.Blocks.lean ====
/- The two regions' arrays read at a block coordinate: an index of the tall array whose row is
   (rows per block) · t + r is, under G0 or G1, the region body's function of block t of the tall inputs at
   row r of the block. Pure: no program is imported. -/
import proofs.«147601_j867583393905_2_alg».proof.Proof.KStages

noncomputable section

namespace Cert.KernelIdeal.KRun

open Idealize.ShloMosaic Idealize.ShloMosaic.ValueIdx Cert.KernelIdeal Cert.KernelIdeal.Stages

variable {F : FTy → Type} [FloatOps F]

/-- Row 400·t + r of the second region's array is row r of the body's result on block t. -/
theorem G1_at (NF AG : Vec F S100000x768 .f32) (W1 W2 : Vec F S768x768 .f32) (b g be : Vec F S1x768 .f32)
    (t : Fin 250) (j : S400x768.Idx) (i : S100000x768.Idx)
    (h0 : (i 0).val = 400 * t.val + (j 0).val) (h1 : (i 1).val = (j 1).val) :
    G1 NF AG W1 W2 b g be i = pay1 (rows400 (e := .f32) NF t) (rows400 (e := .f32) AG t) W1 W2 b g be j := by
  have hj0 : (j 0).val < 400 := idx2_lt0 (n0 := 400) (n1 := 768) j
  have hq : (i 0).val / 400 = t.val := by omega
  have hr : (i 0).val % 400 = (j 0).val := by omega
  have et : ∀ h, (⟨(i 0).val / 400, h⟩ : Fin 250) = t := fun h => Fin.ext hq
  have ej : ∀ h, ix2 (n0 := 400) (n1 := 768) ⟨(i 0).val % 400, h⟩ (i 1) = j := fun h => by
    rw [eq_ix2 (n0 := 400) (n1 := 768) j]
    congr 1
    · exact Fin.ext hr
    · exact Fin.ext h1
  unfold G1
  rw [et, ej]

/-- Row 1000·t + r of the first region's array is row r of the body's result on block t. -/
theorem G0_at (X : Vec F S100000x768 .f32) (TY : Vec F S100000x1 .i32) (W : Vec F S5x768x768 .f32) (B : Vec F S5x768 .f32)
    (t : Fin 100) (j : S1000x768.Idx) (i : S100000x768.Idx)
    (h0 : (i 0).val = 1000 * t.val + (j 0).val) (h1 : (i 1).val = (j 1).val) :
    G0 X TY W B i = pay0 (rows1000 (e := .f32) X t) (col1000 (e := .i32) TY t) W B j := by
  have hj0 : (j 0).val < 1000 := idx2_lt0 (n0 := 1000) (n1 := 768) j
  have hq : (i 0).val / 1000 = t.val := by omega
  have hr : (i 0).val % 1000 = (j 0).val := by omega
  have et : ∀ h, (⟨(i 0).val / 1000, h⟩ : Fin 100) = t := fun h => Fin.ext hq
  have ej : ∀ h, ix2 (n0 := 1000) (n1 := 768) ⟨(i 0).val % 1000, h⟩ (i 1) = j := fun h => by
    rw [eq_ix2 (n0 := 1000) (n1 := 768) j]
    congr 1
    · exact Fin.ext hr
    · exact Fin.ext h1
  unfold G0
  rw [et, ej]

end Cert.KernelIdeal.KRun

end
-- ==== Proof.KRun.Found0.lean ====
/- The first region's body on one block: the body clears a scratch accumulator, adds into it the five relation
   types' masked messages one after the other (each step loads what the step before stored), and last copies
   the accumulator into the output block. So what the run leaves in the output's staging buffer is the chained
   function pay0 of the four input blocks. -/
import proofs.«147601_j867583393905_2_alg».proof.Proof.Gen.KernelIdeal.Frame
import proofs.«147601_j867583393905_2_alg».proof.Proof.KStages

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages

variable {F : FTy → Type} [FloatOps F]

theorem hz2' : (![0, 0] : Fin 2 → Nat) = fun _ => 0 := funext fun a => by fin_cases a <;> rfl

/-- The output block after the body: every load of the scratch through its whole rectangle reads the payload of
    the store just before it, so the six stores collapse into the chain. -/
theorem found0 (c : Dev nD) (i : grid0.Coords) (arg1 : Memref sig .tc .vmem S1000x768 .f32) (harg1 : arg1.IsWhole) (arg2 : Memref sig .tc .vmem S1000x1 .i32) (harg2 : arg2.IsWhole) (arg3 : Memref sig .tc .vmem S5x768x768 .f32) (harg3 : arg3.IsWhole) (arg4 : Memref sig .tc .vmem S5x768 .f32) (harg4 : arg4.IsWhole) (arg5 : Memref sig .tc .vmem S1000x768 .f32) (harg5 : arg5.IsWhole) (arg6 : Memref sig .tc .vmem S1000x768 .f32) (harg6 : arg6.IsWhole)
    (x0 : Vec F S1000x768 .f32) (x1 : Vec F S1000x1 .i32) (x2 : Vec F S5x768x768 .f32) (x3 : Vec F S5x768 .f32) :
    out0_A_4 c i arg1 harg1 arg2 harg2 arg3 harg3 arg4 harg4 arg5 harg5 arg6 harg6 x0 x1 x2 x3 = pay0 x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  try sl_unfold_words
  rw [View.canon_unit_zero hz2']
  simp only [View.readCov_cons_toLoadRect, View.readAt_eq_ld, harg1.read_unread, harg2.read_unread, harg3.read_unread, harg4.read_unread, View.ld_unit_zero (S := S1000x768) hz2', View.ld_unit_zero (S := S1000x1) hz2']
  rfl

end Cert.KernelIdeal.KRun

end
-- ==== Proof.KRun.Reg0.lean ====
/- The first region's result array: after the region every block of 1000 rows of the output holds the body's
   chained function of the same rows of the gathered features and of the type column and of the whole weight and
   bias tables, so the array is G0 of the region's four input arrays as the region finds them. -/
import proofs.«147601_j867583393905_2_alg».proof.Proof.Gen.KernelIdeal.Frame
import proofs.«147601_j867583393905_2_alg».proof.Proof.KStages
import proofs.«147601_j867583393905_2_alg».proof.Proof.KRun.Blocks
import proofs.«147601_j867583393905_2_alg».proof.Proof.KRun.Found0

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages Idealize.ShloMosaic.ValueIdx

variable {F : FTy → Type} [FloatOps F]

variable (V : (c : Dev nD) → (b : Ref sig .tc) → Buf (Elt F) ((c : Thread nD τ).loc b))

/-- The index maps over the grid: the two tall inputs and the output move one block of rows per point, the two
    tables stay at block 0. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

theorem lt100 (t : Fin cfg0.N) : t.val < 100 := by
  have h := t.isLt
  have e : cfg0.N = 100 := N_0
  omega

/-- The gathered features' block at point t is rows 1000·t … 1000·t + 999 of the array. -/
theorem blk0_0 (c : Dev nD) (t : Fin cfg0.N) :
    (iblk0 V c 0 t : Vec F S1000x768 .f32) = rows1000 (e := .f32) (V c main_v10) ⟨t.val, lt100 t⟩ := by
  obtain ⟨⟨e0, e1⟩, -⟩ := idx_facts0 t
  funext y
  have hy0 : (y 0).val < 1000 := idx2_lt0 (n0 := 1000) (n1 := 768) y
  unfold iblk0 rows1000
  rw [View.read_apply]
  show V c main_v10 _ = V c main_v10 _
  congr 1
  funext a
  apply Fin.ext
  match a with
  | ⟨0, _⟩ => show win0_0.index t (0 : Fin 2) * 1000 + 1 * (y 0).val = 1000 * t.val + (y 0).val; rw [e0]; omega
  | ⟨1, _⟩ => show win0_0.index t (1 : Fin 2) * 768 + 1 * (y 1).val = (y 1).val; rw [e1]; omega

/-- The type column's block at point t is the same rows of the column. -/
theorem blk0_1 (c : Dev nD) (t : Fin cfg0.N) :
    (iblk0 V c 1 t : Vec F S1000x1 .i32) = col1000 (e := .i32) (V c main_v11) ⟨t.val, lt100 t⟩ := by
  obtain ⟨-, ⟨e0, e1⟩, -⟩ := idx_facts0 t
  funext y
  have hy0 : (y 0).val < 1000 := idx2_lt0 (n0 := 1000) (n1 := 1) y
  unfold iblk0 col1000
  rw [View.read_apply]
  show V c main_v11 _ = V c main_v11 _
  congr 1
  funext a
  apply Fin.ext
  match a with
  | ⟨0, _⟩ => show win0_1.index t (0 : Fin 2) * 1000 + 1 * (y 0).val = 1000 * t.val + (y 0).val; rw [e0]; omega
  | ⟨1, _⟩ => show win0_1.index t (1 : Fin 2) * 1 + 1 * (y 1).val = (y 1).val; rw [e1]; omega

/-- Each table's one block is the whole table. -/
theorem blk0_2 (c : Dev nD) (t : Fin cfg0.N) : (iblk0 V c 2 t : Vec F S5x768x768 .f32) = V c main_arg1 := by
  obtain ⟨-, -, ⟨e0, e1, e2⟩, -⟩ := idx_facts0 t
  funext y
  unfold iblk0
  rw [View.read_apply]
  show V c main_arg1 _ = V c main_arg1 _
  congr 1
  funext a
  apply Fin.ext
  match a with
  | ⟨0, _⟩ => show win0_2.index t (0 : Fin 3) * 5 + 1 * (y 0).val = (y 0).val; rw [e0]; omega
  | ⟨1, _⟩ => show win0_2.index t (1 : Fin 3) * 768 + 1 * (y 1).val = (y 1).val; rw [e1]; omega
  | ⟨2, _⟩ => show win0_2.index t (2 : Fin 3) * 768 + 1 * (y 2).val = (y 2).val; rw [e2]; omega

theorem blk0_3 (c : Dev nD) (t : Fin cfg0.N) : (iblk0 V c 3 t : Vec F S5x768 .f32) = V c main_arg2 := by
  obtain ⟨-, -, -, ⟨e0, e1⟩, -⟩ := idx_facts0 t
  funext y
  unfold iblk0
  rw [View.read_apply]
  show V c main_arg2 _ = V c main_arg2 _
  congr 1
  funext a
  apply Fin.ext
  match a with
  | ⟨0, _⟩ => show win0_3.index t (0 : Fin 2) * 5 + 1 * (y 0).val = (y 0).val; rw [e0]; omega
  | ⟨1, _⟩ => show win0_3.index t (1 : Fin 2) * 768 + 1 * (y 1).val = (y 1).val; rw [e1]; omega

/-- The array the region leaves, as a function of the region's input arrays. -/
abbrev arr0 (c : Dev nD) : Vec F S100000x768 .f32 :=
  G0 (V c main_v10) (V c main_v11) (V c main_arg1) (V c main_arg2)

/-- What point t writes back is block t of that array. -/
theorem flushed0_eq (c : Dev nD) (t : Fin cfg0.N) :
    (dat0 V c).flushed 4 t = ((cfg0.win 4).blk t).view.read (Elt F) (arr0 V c) := by
  show (cfg0.win 4).cut (grid0.coords t) ((dat0 V c).after 4 t) = _
  rw [after0_4]
  unfold outsAt0
  rw [found0 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) (iblk0 V c 3 t)]
  rw [blk0_0 V c t, blk0_1 V c t, blk0_2 V c t, blk0_3 V c t]
  obtain ⟨-, -, -, -, ⟨e0, e1⟩⟩ := idx_facts0 t
  funext j
  rw [View.read_apply]
  refine (G0_at _ _ _ _ ⟨t.val, lt100 t⟩ j _ ?_ ?_).symm
  · show win0_4.index t (0 : Fin 2) * 1000 + 1 * (j 0).val = 1000 * t.val + (j 0).val; rw [e0]; omega
  · show win0_4.index t (1 : Fin 2) * 768 + 1 * (j 1).val = (j 1).val; rw [e1]; omega

/-- An index of the array is in point t's block iff each coordinate is in the block's range on its axis. -/
theorem mem_blk0 (t : Fin cfg0.N) (i : S100000x768.Idx) :
    i ∈ ((cfg0.win 4).blk t).view.set ↔ ∀ a : Fin 2, win0_4.index t a * S1000x768.size a ≤ (i a).val ∧ (i a).val < win0_4.index t a * S1000x768.size a + S1000x768.size a := by
  show i ∈ ((View.whole main_v12).slice (win0_4.rect t)).set ↔ _
  rw [View.set_slice_whole, Rect.mem_set_unit]
  exact Iff.rfl

/-- Row e lies in the block of point e / 1000. -/
theorem cover0 (i : S100000x768.Idx) : ∃ t : Fin cfg0.N, (cfg0.win 4).flush t = true ∧ i ∈ ((cfg0.win 4).blk t).view.set := by
  have hi0 : (i 0).val < 100000 := idx2_lt0 (n0 := 100000) (n1 := 768) i
  have hi1 : (i 1).val < 768 := idx2_lt1 (n0 := 100000) (n1 := 768) i
  have hN : (i 0).val / 1000 < cfg0.N := by rw [show cfg0.N = 100 from N_0]; omega
  refine ⟨⟨(i 0).val / 1000, hN⟩, flush0_4 _, ?_⟩
  obtain ⟨-, -, -, -, ⟨e0, e1⟩⟩ := idx_facts0 ⟨(i 0).val / 1000, hN⟩
  rw [mem_blk0]
  intro a
  match a with
  | ⟨0, _⟩ => show win0_4.index ⟨(i 0).val / 1000, hN⟩ (0 : Fin 2) * 1000 ≤ (i 0).val ∧ (i 0).val < win0_4.index ⟨(i 0).val / 1000, hN⟩ (0 : Fin 2) * 1000 + 1000
              rw [e0]; show (i 0).val / 1000 * 1000 ≤ (i 0).val ∧ (i 0).val < (i 0).val / 1000 * 1000 + 1000; omega
  | ⟨1, _⟩ => show win0_4.index ⟨(i 0).val / 1000, hN⟩ (1 : Fin 2) * 768 ≤ (i 1).val ∧ (i 1).val < win0_4.index ⟨(i 0).val / 1000, hN⟩ (1 : Fin 2) * 768 + 768
              rw [e1]; omega

/-- The output array after the region. -/
theorem final0 (c : Dev nD) : (dat0 V c).arrAt 4 cfg0.N = arr0 V c :=
  (dat0 V c).arrAt_eq_of_cover 4 (arr0 V c) (fun t _ => flushed0_eq V c t) cover0

end Cert.KernelIdeal.KRun

end
-- ==== Proof.KRun.Reg1.lean ====
/- The second region's result array: after the region every row block of 400 rows of the output holds the
   body's function of the same row block of the two tall inputs and of the five whole small inputs, so the
   array is G1 of the region's seven input arrays as the region finds them. -/
import proofs.«147601_j867583393905_2_alg».proof.Proof.Gen.KernelIdeal.Frame
import proofs.«147601_j867583393905_2_alg».proof.Proof.KStages
import proofs.«147601_j867583393905_2_alg».proof.Proof.KRun.Blocks

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages Idealize.ShloMosaic.ValueIdx

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

/-- The index maps over the grid: the two tall inputs and the output move one block of rows per point, the
    five small inputs stay at block (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

theorem lt250 (t : Fin cfg1.N) : t.val < 250 := by
  have h := t.isLt
  have e : cfg1.N = 250 := N_1
  omega

/-- A tall input's block at point t is rows 400·t … 400·t + 399 of its array. -/
theorem blk1_0 (c : Dev nD) (t : Fin cfg1.N) :
    (iblk1 V c 0 t : Vec F S400x768 .f32) = rows400 (e := .f32) (V c main_arg0) ⟨t.val, lt250 t⟩ := by
  obtain ⟨⟨e0, e1⟩, -⟩ := idx_facts1 t
  funext y
  have hy0 : (y 0).val < 400 := idx2_lt0 (n0 := 400) (n1 := 768) y
  unfold iblk1 rows400
  rw [View.read_apply]
  show V c main_arg0 _ = V c main_arg0 _
  congr 1
  funext a
  apply Fin.ext
  match a with
  | ⟨0, _⟩ => show win1_0.index t (0 : Fin 2) * 400 + 1 * (y 0).val = 400 * t.val + (y 0).val; rw [e0]; omega
  | ⟨1, _⟩ => show win1_0.index t (1 : Fin 2) * 768 + 1 * (y 1).val = (y 1).val; rw [e1]; omega

theorem blk1_1 (c : Dev nD) (t : Fin cfg1.N) :
    (iblk1 V c 1 t : Vec F S400x768 .f32) = rows400 (e := .f32) (V c main_v15) ⟨t.val, lt250 t⟩ := by
  obtain ⟨-, ⟨e0, e1⟩, -⟩ := idx_facts1 t
  funext y
  have hy0 : (y 0).val < 400 := idx2_lt0 (n0 := 400) (n1 := 768) y
  unfold iblk1 rows400
  rw [View.read_apply]
  show V c main_v15 _ = V c main_v15 _
  congr 1
  funext a
  apply Fin.ext
  match a with
  | ⟨0, _⟩ => show win1_1.index t (0 : Fin 2) * 400 + 1 * (y 0).val = 400 * t.val + (y 0).val; rw [e0]; omega
  | ⟨1, _⟩ => show win1_1.index t (1 : Fin 2) * 768 + 1 * (y 1).val = (y 1).val; rw [e1]; omega

/-- A small input's one block is its whole array. -/
theorem blk1_2 (c : Dev nD) (t : Fin cfg1.N) : (iblk1 V c 2 t : Vec F S768x768 .f32) = V c main_v16 := by
  obtain ⟨-, -, ⟨e0, e1⟩, -⟩ := idx_facts1 t
  funext y
  unfold iblk1
  rw [View.read_apply]
  show V c main_v16 _ = V c main_v16 _
  congr 1
  funext a
  apply Fin.ext
  match a with
  | ⟨0, _⟩ => show win1_2.index t (0 : Fin 2) * 768 + 1 * (y 0).val = (y 0).val; rw [e0]; omega
  | ⟨1, _⟩ => show win1_2.index t (1 : Fin 2) * 768 + 1 * (y 1).val = (y 1).val; rw [e1]; omega

theorem blk1_3 (c : Dev nD) (t : Fin cfg1.N) : (iblk1 V c 3 t : Vec F S768x768 .f32) = V c main_v17 := by
  obtain ⟨-, -, -, ⟨e0, e1⟩, -⟩ := idx_facts1 t
  funext y
  unfold iblk1
  rw [View.read_apply]
  show V c main_v17 _ = V c main_v17 _
  congr 1
  funext a
  apply Fin.ext
  match a with
  | ⟨0, _⟩ => show win1_3.index t (0 : Fin 2) * 768 + 1 * (y 0).val = (y 0).val; rw [e0]; omega
  | ⟨1, _⟩ => show win1_3.index t (1 : Fin 2) * 768 + 1 * (y 1).val = (y 1).val; rw [e1]; omega

theorem blk1_4 (c : Dev nD) (t : Fin cfg1.N) : (iblk1 V c 4 t : Vec F S1x768 .f32) = V c main_v18 := by
  obtain ⟨-, -, -, -, ⟨e0, e1⟩, -⟩ := idx_facts1 t
  funext y
  unfold iblk1
  rw [View.read_apply]
  show V c main_v18 _ = V c main_v18 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 768 + 1 * (y 1).val = (y 1).val; rw [e1]; omega

theorem blk1_5 (c : Dev nD) (t : Fin cfg1.N) : (iblk1 V c 5 t : Vec F S1x768 .f32) = V c main_v19 := by
  obtain ⟨-, -, -, -, -, ⟨e0, e1⟩, -⟩ := idx_facts1 t
  funext y
  unfold iblk1
  rw [View.read_apply]
  show V c main_v19 _ = V c main_v19 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 768 + 1 * (y 1).val = (y 1).val; rw [e1]; omega

theorem blk1_6 (c : Dev nD) (t : Fin cfg1.N) : (iblk1 V c 6 t : Vec F S1x768 .f32) = V c main_v20 := by
  obtain ⟨-, -, -, -, -, -, ⟨e0, e1⟩, -⟩ := idx_facts1 t
  funext y
  unfold iblk1
  rw [View.read_apply]
  show V c main_v20 _ = V c main_v20 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 768 + 1 * (y 1).val = (y 1).val; rw [e1]; omega

/-- The array the region leaves, as a function of the region's input arrays. -/
abbrev arr1 (c : Dev nD) : Vec F S100000x768 .f32 :=
  G1 (V c main_arg0) (V c main_v15) (V c main_v16) (V c main_v17) (V c main_v18) (V c main_v19) (V c main_v20)

/-- What point t writes back is block t of that array. -/
theorem flushed1_eq (c : Dev nD) (t : Fin cfg1.N) :
    (dat1 V c).flushed 7 t = ((cfg1.win 7).blk t).view.read (Elt F) (arr1 V c) := by
  show (cfg1.win 7).cut (grid1.coords t) ((dat1 V c).after 7 t) = _
  rw [after1_7]
  unfold out1_7
  rw [View.canon_unit_zero hz2]
  simp only [View.ld_unit_zero (S := S400x768) hz2, View.ld_unit_zero (S := S768x768) hz2, View.ld_unit_zero (S := S1x768) hz2]
  rw [blk1_0 V c t, blk1_1 V c t, blk1_2 V c t, blk1_3 V c t, blk1_4 V c t, blk1_5 V c t, blk1_6 V c t]
  obtain ⟨-, -, -, -, -, -, -, ⟨e0, e1⟩⟩ := idx_facts1 t
  funext j
  rw [View.read_apply]
  refine (G1_at _ _ _ _ _ _ _ ⟨t.val, lt250 t⟩ j _ ?_ ?_).symm
  · show win1_7.index t (0 : Fin 2) * 400 + 1 * (j 0).val = 400 * t.val + (j 0).val; rw [e0]; omega
  · show win1_7.index t (1 : Fin 2) * 768 + 1 * (j 1).val = (j 1).val; rw [e1]; omega

/-- An index of the array is in point t's block iff each coordinate is in the block's range on its axis. -/
theorem mem_blk1 (t : Fin cfg1.N) (i : S100000x768.Idx) :
    i ∈ ((cfg1.win 7).blk t).view.set ↔ ∀ a : Fin 2, win1_7.index t a * S400x768.size a ≤ (i a).val ∧ (i a).val < win1_7.index t a * S400x768.size a + S400x768.size a := by
  show i ∈ ((View.whole main_v21).slice (win1_7.rect t)).set ↔ _
  rw [View.set_slice_whole, Rect.mem_set_unit]
  exact Iff.rfl

/-- Row n lies in the block of point n / 400. -/
theorem cover1 (i : S100000x768.Idx) : ∃ t : Fin cfg1.N, (cfg1.win 7).flush t = true ∧ i ∈ ((cfg1.win 7).blk t).view.set := by
  have hi0 : (i 0).val < 100000 := idx2_lt0 (n0 := 100000) (n1 := 768) i
  have hi1 : (i 1).val < 768 := idx2_lt1 (n0 := 100000) (n1 := 768) i
  have hN : (i 0).val / 400 < cfg1.N := by rw [show cfg1.N = 250 from N_1]; omega
  refine ⟨⟨(i 0).val / 400, hN⟩, flush1_7 _, ?_⟩
  obtain ⟨-, -, -, -, -, -, -, ⟨e0, e1⟩⟩ := idx_facts1 ⟨(i 0).val / 400, hN⟩
  rw [mem_blk1]
  intro a
  match a with
  | ⟨0, _⟩ => show win1_7.index ⟨(i 0).val / 400, hN⟩ (0 : Fin 2) * 400 ≤ (i 0).val ∧ (i 0).val < win1_7.index ⟨(i 0).val / 400, hN⟩ (0 : Fin 2) * 400 + 400
              rw [e0]; show (i 0).val / 400 * 400 ≤ (i 0).val ∧ (i 0).val < (i 0).val / 400 * 400 + 400; omega
  | ⟨1, _⟩ => show win1_7.index ⟨(i 0).val / 400, hN⟩ (1 : Fin 2) * 768 ≤ (i 1).val ∧ (i 1).val < win1_7.index ⟨(i 0).val / 400, hN⟩ (1 : Fin 2) * 768 + 768
              rw [e1]; omega

/-- The output array after the region. -/
theorem final1 (c : Dev nD) : (dat1 V c).arrAt 7 cfg1.N = arr1 V c :=
  (dat1 V c).arrAt_eq_of_cover 7 (arr1 V c) (fun t _ => flushed1_eq V c t) cover1

end Cert.KernelIdeal.KRun

end
-- ==== Proof.KRun.Entry.lean ====
/- The result buffer at the last boundary, walked back to the launch memory: the second region's array is G1 of
   what the stretch of host operations before it leaves, which reads the first region's array (G0 of what the first
   stretch leaves) and the arguments; every buffer read on the way that no segment writes holds its launch
   contents. Together: the program's result is outK of the nine argument arrays. -/
import proofs.«147601_j867583393905_2_alg».proof.Proof.Gen.KernelIdeal.Frame
import proofs.«147601_j867583393905_2_alg».proof.Proof.KStages
import proofs.«147601_j867583393905_2_alg».proof.Proof.KRun.HostOps
import proofs.«147601_j867583393905_2_alg».proof.Proof.KRun.Reg0
import proofs.«147601_j867583393905_2_alg».proof.Proof.KRun.Reg1

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages

variable {F : FTy → Type} [FloatOps F]

variable (m : (ℓ : Loc nD τ sig) → Buf (Elt F) ℓ) (ρ : Dev nD → PrngReg)

/-! ## What the first region finds -/

theorem V1_v10 (c : Dev nD) : V1 m ρ c main_v10 = srcRows (F := F) (m ((c.tc : Thread nD τ).loc main_arg0)) (m ((c.tc : Thread nD τ).loc main_arg7)) :=
  host0_v10 (W0 m ρ c)
theorem V1_v11 (c : Dev nD) : V1 m ρ c main_v11 = tyCol (F := F) (m ((c.tc : Thread nD τ).loc main_arg8)) :=
  host0_v11 (W0 m ρ c)
theorem V1_arg1 (c : Dev nD) : V1 m ρ c main_arg1 = (m ((c.tc : Thread nD τ).loc main_arg1)) :=
  host0_arg1 (W0 m ρ c)
theorem V1_arg2 (c : Dev nD) : V1 m ρ c main_arg2 = (m ((c.tc : Thread nD τ).loc main_arg2)) :=
  host0_arg2 (W0 m ρ c)

/-- The first region's array: the messages of all edges. -/
theorem W2_v12 (c : Dev nD) : W2 m ρ c (Proc.devRef .tc main_v12)
    = G0 (srcRows (F := F) (m ((c.tc : Thread nD τ).loc main_arg0)) (m ((c.tc : Thread nD τ).loc main_arg7))) (tyCol (F := F) (m ((c.tc : Thread nD τ).loc main_arg8))) (m ((c.tc : Thread nD τ).loc main_arg1)) (m ((c.tc : Thread nD τ).loc main_arg2)) := by
  refine (W2_arr m ρ c 4).trans ((final0 (V1 m ρ) c).trans ?_)
  unfold arr0
  rw [V1_v10 m ρ c, V1_v11 m ρ c, V1_arg1 m ρ c, V1_arg2 m ρ c]

/-! ## What the second region finds -/

/-- A buffer neither the first stretch nor the first region writes holds its launch contents between the regions. -/
theorem W2_v3 (c : Dev nD) : W2 m ρ c (Proc.devRef .tc main_v3)
    = edgeRow (F := F) 1 slices_S2x100000_S1x100000_1_0 (m ((c.tc : Thread nD τ).loc main_arg7)) :=
  (W2_of_ne m ρ c main_v3 (by decide)).trans (host0_v3 (W0 m ρ c))
theorem W2_arg0 (c : Dev nD) : W2 m ρ c (Proc.devRef .tc main_arg0) = (m ((c.tc : Thread nD τ).loc main_arg0)) :=
  (W2_of_ne m ρ c main_arg0 (by decide)).trans (host0_arg0 (W0 m ρ c))
theorem W2_arg3 (c : Dev nD) : W2 m ρ c (Proc.devRef .tc main_arg3) = (m ((c.tc : Thread nD τ).loc main_arg3)) :=
  (W2_of_ne m ρ c main_arg3 (by decide)).trans (host0_arg3 (W0 m ρ c))
theorem W2_arg4 (c : Dev nD) : W2 m ρ c (Proc.devRef .tc main_arg4) = (m ((c.tc : Thread nD τ).loc main_arg4)) :=
  (W2_of_ne m ρ c main_arg4 (by decide)).trans (host0_arg4 (W0 m ρ c))
theorem W2_arg5 (c : Dev nD) : W2 m ρ c (Proc.devRef .tc main_arg5) = (m ((c.tc : Thread nD τ).loc main_arg5)) :=
  (W2_of_ne m ρ c main_arg5 (by decide)).trans (host0_arg5 (W0 m ρ c))
theorem W2_arg6 (c : Dev nD) : W2 m ρ c (Proc.devRef .tc main_arg6) = (m ((c.tc : Thread nD τ).loc main_arg6)) :=
  (W2_of_ne m ρ c main_arg6 (by decide)).trans (host0_arg6 (W0 m ρ c))

theorem V3_arg0 (c : Dev nD) : V3 m ρ c main_arg0 = (m ((c.tc : Thread nD τ).loc main_arg0)) :=
  (host1_arg0 (W2 m ρ c)).trans (W2_arg0 m ρ c)
theorem V3_v15 (c : Dev nD) : V3 m ρ c main_v15
    = aggK (F := F) (G0 (srcRows (F := F) (m ((c.tc : Thread nD τ).loc main_arg0)) (m ((c.tc : Thread nD τ).loc main_arg7))) (tyCol (F := F) (m ((c.tc : Thread nD τ).loc main_arg8))) (m ((c.tc : Thread nD τ).loc main_arg1)) (m ((c.tc : Thread nD τ).loc main_arg2))) (m ((c.tc : Thread nD τ).loc main_arg7)) := by
  refine (host1_v15 (W2 m ρ c)).trans ?_
  rw [W2_v3 m ρ c, W2_v12 m ρ c]
  rfl
theorem V3_v16 (c : Dev nD) : V3 m ρ c main_v16 = w1K (F := F) (m ((c.tc : Thread nD τ).loc main_arg3)) := by
  refine (host1_v16 (W2 m ρ c)).trans ?_
  rw [W2_arg3 m ρ c]
theorem V3_v17 (c : Dev nD) : V3 m ρ c main_v17 = w2K (F := F) (m ((c.tc : Thread nD τ).loc main_arg3)) := by
  refine (host1_v17 (W2 m ρ c)).trans ?_
  rw [W2_arg3 m ρ c]
theorem V3_v18 (c : Dev nD) : V3 m ρ c main_v18 = rowK (F := F) (m ((c.tc : Thread nD τ).loc main_arg4)) := by
  refine (host1_v18 (W2 m ρ c)).trans ?_
  rw [W2_arg4 m ρ c]
theorem V3_v19 (c : Dev nD) : V3 m ρ c main_v19 = rowK (F := F) (m ((c.tc : Thread nD τ).loc main_arg5)) := by
  refine (host1_v19 (W2 m ρ c)).trans ?_
  rw [W2_arg5 m ρ c]
theorem V3_v20 (c : Dev nD) : V3 m ρ c main_v20 = rowK (F := F) (m ((c.tc : Thread nD τ).loc main_arg6)) := by
  refine (host1_v20 (W2 m ρ c)).trans ?_
  rw [W2_arg6 m ρ c]

/-- The result buffer at the last boundary is the program's function of the nine argument arrays. -/
theorem W4_v21 (c : Dev nD) : W4 m ρ c (Proc.devRef .tc main_v21)
    = outK (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 7).trans ((final1 (V3 m ρ) c).trans ?_)
  unfold arr1
  rw [V3_arg0 m ρ c, V3_v15 m ρ c, V3_v16 m ρ c, V3_v17 m ρ c, V3_v18 m ρ c, V3_v19 m ρ c, V3_v20 m ρ c]
  rfl

end Cert.KernelIdeal.KRun

end
-- ==== Proof.KRun.lean ====
/- The kernel program's run with its value: every weakly fair execution of @main on the TensorCores terminates,
   the result buffer ends at outK of the nine argument arrays as launched, and the arguments end as launched. -/
import proofs.«147601_j867583393905_2_alg».proof.Proof.Gen.KernelIdeal.Frame
import proofs.«147601_j867583393905_2_alg».proof.Proof.KStages
import proofs.«147601_j867583393905_2_alg».proof.Proof.KRun.RunValue
import proofs.«147601_j867583393905_2_alg».proof.Proof.KRun.Entry

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Cert.KernelIdeal.Stages

/-- The run at any float instance. -/
theorem run_F {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21)
          = outK (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (W4_v21 m ρ c), (h c).2⟩) (run_value m ρ)

/-- The run at the ideal instance (floats the extended reals, operations exact). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = outK (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run_F (F := Ideal) m ρ

end Cert.KernelIdeal.KRun

end
-- ==== Proof.RefRun.Ops.lean ====
/-
  The idealized reference program's @main as a list of its host operations, in order, the calls unfolded: the
  three functions the program outlines (the positive part, the row variance, and the select inside it) contribute
  their own operations at the place of the call, over the buffers the call names. The program is that straight
  line, every operation touches TensorCore references only, and so every weakly fair execution terminates with
  each buffer at the fold of the operations' results over the launch contents.
-/
import proofs.«147601_j867583393905_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1–60, in order: the edge table's two rows, the wrapped source indices,
    the row gather, and the masked affine messages of relation types 0, 1 and the first half of type 2. -/
abbrev ops0 : List (HloOp τ sig (Elt F)) :=
  [ StableHlo.unary main_arg7 main_v0 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v0 main_v1 rfl shapeCasts_S1x100000_S100000,
    StableHlo.unary main_arg7 main_v2 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v2 main_v3 rfl shapeCasts_S1x100000_S100000,
    StableHlo.nullary main_c (constantI S_ 32 0#32),
    StableHlo.unary main_c main_v4 (broadcastInDim S100000 ![] bcast_S_S100000 : (⟨S_, .i32⟩ : BufTy).Contents (Elt F) → (⟨S100000, .i32⟩ : BufTy).Contents (Elt F)),
    StableHlo.binary main_v1 main_v4 main_v5 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v6 (broadcastInDim S100000 ![] bcast_S_S100000 : (⟨S_, .i32⟩ : BufTy).Contents (Elt F) → (⟨S100000, .i32⟩ : BufTy).Contents (Elt F)),
    StableHlo.binary main_v1 main_v6 main_v7 (addi : (⟨S100000, .i32⟩ : BufTy).Contents (Elt F) → (⟨S100000, .i32⟩ : BufTy).Contents (Elt F) → (⟨S100000, .i32⟩ : BufTy).Contents (Elt F)),
    StableHlo.ternary main_v5 main_v7 main_v1 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v8 main_v9 (broadcastInDim S100000x1 ![0] bcast_S100000_S100000x1_0 : (⟨S100000, .i32⟩ : BufTy).Contents (Elt F) → (⟨S100000x1, .i32⟩ : BufTy).Contents (Elt F)),
    StableHlo.binary main_arg0 main_v9 main_v10 ((fun x i => Host.gather gather_S100000x768_S100000x1_S100000x768_1_0_n_n_0_1_1768 x i) : (⟨S100000x768, .f32⟩ : BufTy).Contents (Elt F) → (⟨S100000x1, .i32⟩ : BufTy).Contents (Elt F) → (⟨S100000x768, .f32⟩ : BufTy).Contents (Elt F)),
    StableHlo.nullary main_cst (constant S_ .f32 0x00000000#32),
    StableHlo.unary main_cst main_v11 (broadcastInDim S100000x768 ![] bcast_S_S100000x768 : (⟨S_, .f32⟩ : BufTy).Contents (Elt F) → (⟨S100000x768, .f32⟩ : BufTy).Contents (Elt F)),
    StableHlo.nullary main_c_1 (constantI S_ 32 0#32),
    StableHlo.unary main_c_1 main_v12 (broadcastInDim S100000 ![] bcast_S_S100000 : (⟨S_, .i32⟩ : BufTy).Contents (Elt F) → (⟨S100000, .i32⟩ : BufTy).Contents (Elt F)),
    StableHlo.binary main_arg8 main_v12 main_v13 (cmpi .eq : (⟨S100000, .i32⟩ : BufTy).Contents (Elt F) → (⟨S100000, .i32⟩ : BufTy).Contents (Elt F) → (⟨S100000, .i1⟩ : BufTy).Contents (Elt F)),
    StableHlo.unary main_v13 main_v14 (uitofp .f32 : (⟨S100000, .i1⟩ : BufTy).Contents (Elt F) → (⟨S100000, .f32⟩ : BufTy).Contents (Elt F)),
    StableHlo.unary main_v14 main_v15 (broadcastInDim S100000x1 ![0] bcast_S100000_S100000x1_0 : (⟨S100000, .f32⟩ : BufTy).Contents (Elt F) → (⟨S100000x1, .f32⟩ : BufTy).Contents (Elt F)),
    StableHlo.unary main_arg1 main_v16 ((extractStridedSlice S1x768x768 ![0, 0, 0] · slices_S5x768x768_S1x768x768_0_0_0) : (⟨S5x768x768, .f32⟩ : BufTy).Contents (Elt F) → (⟨S1x768x768, .f32⟩ : BufTy).Contents (Elt F)),
    StableHlo.reshape main_v16 main_v17 rfl shapeCasts_S1x768x768_S768x768,
    StableHlo.unary main_v17 main_v18 ((transpose S768x768 [1, 0] · transposes_S768x768_S768x768_1_0) : (⟨S768x768, .f32⟩ : BufTy).Contents (Elt F) → (⟨S768x768, .f32⟩ : BufTy).Contents (Elt F)),
    StableHlo.binary main_v10 main_v18 main_v19 ((fun l r => Host.dotGeneral dot_S100000x768_S768x768_S100000x768_1_0_0_1_n_n none l r) : (⟨S100000x768, .f32⟩ : BufTy).Contents (Elt F) → (⟨S768x768, .f32⟩ : BufTy).Contents (Elt F) → (⟨S100000x768, .f32⟩ : BufTy).Contents (Elt F)),
    StableHlo.unary main_arg2 main_v20 ((extractStridedSlice S1x768 ![0, 0] · slices_S5x768_S1x768_0_0) : (⟨S5x768, .f32⟩ : BufTy).Contents (Elt F) → (⟨S1x768, .f32⟩ : BufTy).Contents (Elt F)),
    StableHlo.reshape main_v20 main_v21 rfl shapeCasts_S1x768_S768,
    StableHlo.unary main_v21 main_v22 (broadcastInDim S1x768 ![1] bcast_S768_S1x768_1 : (⟨S768, .f32⟩ : BufTy).Contents (Elt F) → (⟨S1x768, .f32⟩ : BufTy).Contents (Elt F)),
    StableHlo.unary main_v22 main_v23 (broadcastInDim S100000x768 ![0, 1] bcast_S1x768_S100000x768_0_1 : (⟨S1x768, .f32⟩ : BufTy).Contents (Elt F) → (⟨S100000x768, .f32⟩ : BufTy).Contents (Elt F)),
    StableHlo.binary main_v19 main_v23 main_v24 (addf : (⟨S100000x768, .f32⟩ : BufTy).Contents (Elt F) → (⟨S100000x768, .f32⟩ : BufTy).Contents (Elt F) → (⟨S100000x768, .f32⟩ : BufTy).Contents (Elt F)),
    StableHlo.unary main_v15 main_v25 (broadcastInDim S100000x768 ![0, 1] bcast_S100000x1_S100000x768_0_1 : (⟨S100000x1, .f32⟩ : BufTy).Contents (Elt F) → (⟨S100000x768, .f32⟩ : BufTy).Contents (Elt F)),
    StableHlo.binary main_v24 main_v25 main_v26 (mulf : (⟨S100000x768, .f32⟩ : BufTy).Contents (Elt F) → (⟨S100000x768, .f32⟩ : BufTy).Contents (Elt F) → (⟨S100000x768, .f32⟩ : BufTy).Contents (Elt F)),
    StableHlo.binary main_v11 main_v26 main_v27 (addf : (⟨S100000x768, .f32⟩ : BufTy).Contents (Elt F) → (⟨S100000x768, .f32⟩ : BufTy).Contents (Elt F) → (⟨S100000x768, .f32⟩ : BufTy).Contents (Elt F)),
    StableHlo.nullary main_c_2 (constantI S_ 32 1#32),
    StableHlo.unary main_c_2 main_v28 (broadcastInDim S100000 ![] bcast_S_S100000 : (⟨S_, .i32⟩ : BufTy).Contents (Elt F) → (⟨S100000, .i32⟩ : BufTy).Contents (Elt F)),
    StableHlo.binary main_arg8 main_v28 main_v29 (cmpi .eq : (⟨S100000, .i32⟩ : BufTy).Contents (Elt F) → (⟨S100000, .i32⟩ : BufTy).Contents (Elt F) → (⟨S100000, .i1⟩ : BufTy).Contents (Elt F)),
    StableHlo.unary main_v29 main_v30 (uitofp .f32 : (⟨S100000, .i1⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_arg1 main_v32 ((extractStridedSlice S1x768x768 ![1, 0, 0] · slices_S5x768x768_S1x768x768_1_0_0) : (⟨S5x768x768, .f32⟩ : BufTy).Contents (Elt F) → (⟨S1x768x768, .f32⟩ : BufTy).Contents (Elt F)),
    StableHlo.reshape main_v32 main_v33 rfl shapeCasts_S1x768x768_S768x768,
    StableHlo.unary main_v33 main_v34 ((transpose S768x768 [1, 0] · transposes_S768x768_S768x768_1_0) : (⟨S768x768, .f32⟩ : BufTy).Contents (Elt F) → (⟨S768x768, .f32⟩ : BufTy).Contents (Elt F)),
    StableHlo.binary main_v10 main_v34 main_v35 ((fun l r => Host.dotGeneral dot_S100000x768_S768x768_S100000x768_1_0_0_1_n_n none l r) : (⟨S100000x768, .f32⟩ : BufTy).Contents (Elt F) → (⟨S768x768, .f32⟩ : BufTy).Contents (Elt F) → (⟨S100000x768, .f32⟩ : BufTy).Contents (Elt F)),
    StableHlo.unary main_arg2 main_v36 ((extractStridedSlice S1x768 ![1, 0] · slices_S5x768_S1x768_1_0) : (⟨S5x768, .f32⟩ : BufTy).Contents (Elt F) → (⟨S1x768, .f32⟩ : BufTy).Contents (Elt F)),
    StableHlo.reshape main_v36 main_v37 rfl shapeCasts_S1x768_S768,
    StableHlo.unary main_v37 main_v38 (broadcastInDim S1x768 ![1] bcast_S768_S1x768_1 : (⟨S768, .f32⟩ : BufTy).Contents (Elt F) → (⟨S1x768, .f32⟩ : BufTy).Contents (Elt F)),
    StableHlo.unary main_v38 main_v39 (broadcastInDim S100000x768 ![0, 1] bcast_S1x768_S100000x768_0_1 : (⟨S1x768, .f32⟩ : BufTy).Contents (Elt F) → (⟨S100000x768, .f32⟩ : BufTy).Contents (Elt F)),
    StableHlo.binary main_v35 main_v39 main_v40 (addf : (⟨S100000x768, .f32⟩ : BufTy).Contents (Elt F) → (⟨S100000x768, .f32⟩ : BufTy).Contents (Elt F) → (⟨S100000x768, .f32⟩ : BufTy).Contents (Elt F)),
    StableHlo.unary main_v31 main_v41 (broadcastInDim S100000x768 ![0, 1] bcast_S100000x1_S100000x768_0_1 : (⟨S100000x1, .f32⟩ : BufTy).Contents (Elt F) → (⟨S100000x768, .f32⟩ : BufTy).Contents (Elt F)),
    StableHlo.binary main_v40 main_v41 main_v42 (mulf : (⟨S100000x768, .f32⟩ : BufTy).Contents (Elt F) → (⟨S100000x768, .f32⟩ : BufTy).Contents (Elt F) → (⟨S100000x768, .f32⟩ : BufTy).Contents (Elt F)),
    StableHlo.binary main_v27 main_v42 main_v43 (addf : (⟨S100000x768, .f32⟩ : BufTy).Contents (Elt F) → (⟨S100000x768, .f32⟩ : BufTy).Contents (Elt F) → (⟨S100000x768, .f32⟩ : BufTy).Contents (Elt F)),
    StableHlo.nullary main_c_3 (constantI S_ 32 2#32),
    StableHlo.unary main_c_3 main_v44 (broadcastInDim S100000 ![] bcast_S_S100000 : (⟨S_, .i32⟩ : BufTy).Contents (Elt F) → (⟨S100000, .i32⟩ : BufTy).Contents (Elt F)),
    StableHlo.binary main_arg8 main_v44 main_v45 (cmpi .eq : (⟨S100000, .i32⟩ : BufTy).Contents (Elt F) → (⟨S100000, .i32⟩ : BufTy).Contents (Elt F) → (⟨S100000, .i1⟩ : BufTy).Contents (Elt F)),
    StableHlo.unary main_v45 main_v46 (uitofp .f32 : (⟨S100000, .i1⟩ : BufTy).Contents (Elt F) → (⟨S100000, .f32⟩ : BufTy).Contents (Elt F)),
    StableHlo.unary main_v46 main_v47 (broadcastInDim S100000x1 ![0] bcast_S100000_S100000x1_0 : (⟨S100000, .f32⟩ : BufTy).Contents (Elt F) → (⟨S100000x1, .f32⟩ : BufTy).Contents (Elt F)),
    StableHlo.unary main_arg1 main_v48 ((extractStridedSlice S1x768x768 ![2, 0, 0] · slices_S5x768x768_S1x768x768_2_0_0) : (⟨S5x768x768, .f32⟩ : BufTy).Contents (Elt F) → (⟨S1x768x768, .f32⟩ : BufTy).Contents (Elt F)),
    StableHlo.reshape main_v48 main_v49 rfl shapeCasts_S1x768x768_S768x768,
    StableHlo.unary main_v49 main_v50 ((transpose S768x768 [1, 0] · transposes_S768x768_S768x768_1_0) : (⟨S768x768, .f32⟩ : BufTy).Contents (Elt F) → (⟨S768x768, .f32⟩ : BufTy).Contents (Elt F)),
    StableHlo.binary main_v10 main_v50 main_v51 ((fun l r => Host.dotGeneral dot_S100000x768_S768x768_S100000x768_1_0_0_1_n_n none l r) : (⟨S100000x768, .f32⟩ : BufTy).Contents (Elt F) → (⟨S768x768, .f32⟩ : BufTy).Contents (Elt F) → (⟨S100000x768, .f32⟩ : BufTy).Contents (Elt F)),
    StableHlo.unary main_arg2 main_v52 ((extractStridedSlice S1x768 ![2, 0] · slices_S5x768_S1x768_2_0) : (⟨S5x768, .f32⟩ : BufTy).Contents (Elt F) → (⟨S1x768, .f32⟩ : BufTy).Contents (Elt F)),
    StableHlo.reshape main_v52 main_v53 rfl shapeCasts_S1x768_S768 ]

/-- The operations of @main's statements 61–120, in order, the calls unfolded: the rest of the messages, the
    scatter-add, the update product, the positive part (three operations over its call's buffers), the residual sum,
    the row mean, and the row variance (twenty of its own and the three of the select inside it). -/
abbrev ops1 : List (HloOp τ sig (Elt F)) :=
  [ StableHlo.unary main_v53 main_v54 (broadcastInDim S1x768 ![1] bcast_S768_S1x768_1 : (⟨S768, .f32⟩ : BufTy).Contents (Elt F) → (⟨S1x768, .f32⟩ : BufTy).Contents (Elt F)),
    StableHlo.unary main_v54 main_v55 (broadcastInDim S100000x768 ![0, 1] bcast_S1x768_S100000x768_0_1 : (⟨S1x768, .f32⟩ : BufTy).Contents (Elt F) → (⟨S100000x768, .f32⟩ : BufTy).Contents (Elt F)),
    StableHlo.binary main_v51 main_v55 main_v56 (addf : (⟨S100000x768, .f32⟩ : BufTy).Contents (Elt F) → (⟨S100000x768, .f32⟩ : BufTy).Contents (Elt F) → (⟨S100000x768, .f32⟩ : BufTy).Contents (Elt F)),
    StableHlo.unary main_v47 main_v57 (broadcastInDim S100000x768 ![0, 1] bcast_S100000x1_S100000x768_0_1 : (⟨S100000x1, .f32⟩ : BufTy).Contents (Elt F) → (⟨S100000x768, .f32⟩ : BufTy).Contents (Elt F)),
    StableHlo.binary main_v56 main_v57 main_v58 (mulf : (⟨S100000x768, .f32⟩ : BufTy).Contents (Elt F) → (⟨S100000x768, .f32⟩ : BufTy).Contents (Elt F) → (⟨S100000x768, .f32⟩ : BufTy).Contents (Elt F)),
    StableHlo.binary main_v43 main_v58 main_v59 (addf : (⟨S100000x768, .f32⟩ : BufTy).Contents (Elt F) → (⟨S100000x768, .f32⟩ : BufTy).Contents (Elt F) → (⟨S100000x768, .f32⟩ : BufTy).Contents (Elt F)),
    StableHlo.nullary main_c_4 (constantI S_ 32 3#32),
    StableHlo.unary main_c_4 main_v60 (broadcastInDim S100000 ![] bcast_S_S100000 : (⟨S_, .i32⟩ : BufTy).Contents (Elt F) → (⟨S100000, .i32⟩ : BufTy).Contents (Elt F)),
    StableHlo.binary main_arg8 main_v60 main_v61 (cmpi .eq : (⟨S100000, .i32⟩ : BufTy).Contents (Elt F) → (⟨S100000, .i32⟩ : BufTy).Contents (Elt F) → (⟨S100000, .i1⟩ : BufTy).Contents (Elt F)),
    StableHlo.unary main_v61 main_v62 (uitofp .f32 : (⟨S100000, .i1⟩ : BufTy).Contents (Elt F) → (⟨S100000, .f32⟩ : BufTy).Contents (Elt F)),
    StableHlo.unary main_v62 main_v63 (broadcastInDim S100000x1 ![0] bcast_S100000_S100000x1_0 : (⟨S100000, .f32⟩ : BufTy).Contents (Elt F) → (⟨S100000x1, .f32⟩ : BufTy).Contents (Elt F)),
    StableHlo.unary main_arg1 main_v64 ((extractStridedSlice S1x768x768 ![3, 0, 0] · slices_S5x768x768_S1x768x768_3_0_0) : (⟨S5x768x768, .f32⟩ : BufTy).Contents (Elt F) → (⟨S1x768x768, .f32⟩ : BufTy).Contents (Elt F)),
    StableHlo.reshape main_v64 main_v65 rfl shapeCasts_S1x768x768_S768x768,
    StableHlo.unary main_v65 main_v66 ((transpose S768x768 [1, 0] · transposes_S768x768_S768x768_1_0) : (⟨S768x768, .f32⟩ : BufTy).Contents (Elt F) → (⟨S768x768, .f32⟩ : BufTy).Contents (Elt F)),
    StableHlo.binary main_v10 main_v66 main_v67 ((fun l r => Host.dotGeneral dot_S100000x768_S768x768_S100000x768_1_0_0_1_n_n none l r) : (⟨S100000x768, .f32⟩ : BufTy).Contents (Elt F) → (⟨S768x768, .f32⟩ : BufTy).Contents (Elt F) → (⟨S100000x768, .f32⟩ : BufTy).Contents (Elt F)),
    StableHlo.unary main_arg2 main_v68 ((extractStridedSlice S1x768 ![3, 0] · slices_S5x768_S1x768_3_0) : (⟨S5x768, .f32⟩ : BufTy).Contents (Elt F) → (⟨S1x768, .f32⟩ : BufTy).Contents (Elt F)),
    StableHlo.reshape main_v68 main_v69 rfl shapeCasts_S1x768_S768,
    StableHlo.unary main_v69 main_v70 (broadcastInDim S1x768 ![1] bcast_S768_S1x768_1 : (⟨S768, .f32⟩ : BufTy).Contents (Elt F) → (⟨S1x768, .f32⟩ : BufTy).Contents (Elt F)),
    StableHlo.unary main_v70 main_v71 (broadcastInDim S100000x768 ![0, 1] bcast_S1x768_S100000x768_0_1 : (⟨S1x768, .f32⟩ : BufTy).Contents (Elt F) → (⟨S100000x768, .f32⟩ : BufTy).Contents (Elt F)),
    StableHlo.binary main_v67 main_v71 main_v72 (addf : (⟨S100000x768, .f32⟩ : BufTy).Contents (Elt F) → (⟨S100000x768, .f32⟩ : BufTy).Contents (Elt F) → (⟨S100000x768, .f32⟩ : BufTy).Contents (Elt F)),
    StableHlo.unary main_v63 main_v73 (broadcastInDim S100000x768 ![0, 1] bcast_S100000x1_S100000x768_0_1 : (⟨S100000x1, .f32⟩ : BufTy).Contents (Elt F) → (⟨S100000x768, .f32⟩ : BufTy).Contents (Elt F)),
    StableHlo.binary main_v72 main_v73 main_v74 (mulf : (⟨S100000x768, .f32⟩ : BufTy).Contents (Elt F) → (⟨S100000x768, .f32⟩ : BufTy).Contents (Elt F) → (⟨S100000x768, .f32⟩ : BufTy).Contents (Elt F)),
    StableHlo.binary main_v59 main_v74 main_v75 (addf : (⟨S100000x768, .f32⟩ : BufTy).Contents (Elt F) → (⟨S100000x768, .f32⟩ : BufTy).Contents (Elt F) → (⟨S100000x768, .f32⟩ : BufTy).Contents (Elt F)),
    StableHlo.nullary main_c_5 (constantI S_ 32 4#32),
    StableHlo.unary main_c_5 main_v76 (broadcastInDim S100000 ![] bcast_S_S100000 : (⟨S_, .i32⟩ : BufTy).Contents (Elt F) → (⟨S100000, .i32⟩ : BufTy).Contents (Elt F)),
    StableHlo.binary main_arg8 main_v76 main_v77 (cmpi .eq : (⟨S100000, .i32⟩ : BufTy).Contents (Elt F) → (⟨S100000, .i32⟩ : BufTy).Contents (Elt F) → (⟨S100000, .i1⟩ : BufTy).Contents (Elt F)),
    StableHlo.unary main_v77 main_v78 (uitofp .f32 : (⟨S100000, .i1⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_arg1 main_v80 ((extractStridedSlice S1x768x768 ![4, 0, 0] · slices_S5x768x768_S1x768x768_4_0_0) : (⟨S5x768x768, .f32⟩ : BufTy).Contents (Elt F) → (⟨S1x768x768, .f32⟩ : BufTy).Contents (Elt F)),
    StableHlo.reshape main_v80 main_v81 rfl shapeCasts_S1x768x768_S768x768,
    StableHlo.unary main_v81 main_v82 ((transpose S768x768 [1, 0] · transposes_S768x768_S768x768_1_0) : (⟨S768x768, .f32⟩ : BufTy).Contents (Elt F) → (⟨S768x768, .f32⟩ : BufTy).Contents (Elt F)),
    StableHlo.binary main_v10 main_v82 main_v83 ((fun l r => Host.dotGeneral dot_S100000x768_S768x768_S100000x768_1_0_0_1_n_n none l r) : (⟨S100000x768, .f32⟩ : BufTy).Contents (Elt F) → (⟨S768x768, .f32⟩ : BufTy).Contents (Elt F) → (⟨S100000x768, .f32⟩ : BufTy).Contents (Elt F)),
    StableHlo.unary main_arg2 main_v84 ((extractStridedSlice S1x768 ![4, 0] · slices_S5x768_S1x768_4_0) : (⟨S5x768, .f32⟩ : BufTy).Contents (Elt F) → (⟨S1x768, .f32⟩ : BufTy).Contents (Elt F)),
    StableHlo.reshape main_v84 main_v85 rfl shapeCasts_S1x768_S768,
    StableHlo.unary main_v85 main_v86 (broadcastInDim S1x768 ![1] bcast_S768_S1x768_1 : (⟨S768, .f32⟩ : BufTy).Contents (Elt F) → (⟨S1x768, .f32⟩ : BufTy).Contents (Elt F)),
    StableHlo.unary main_v86 main_v87 (broadcastInDim S100000x768 ![0, 1] bcast_S1x768_S100000x768_0_1 : (⟨S1x768, .f32⟩ : BufTy).Contents (Elt F) → (⟨S100000x768, .f32⟩ : BufTy).Contents (Elt F)),
    StableHlo.binary main_v83 main_v87 main_v88 (addf : (⟨S100000x768, .f32⟩ : BufTy).Contents (Elt F) → (⟨S100000x768, .f32⟩ : BufTy).Contents (Elt F) → (⟨S100000x768, .f32⟩ : BufTy).Contents (Elt F)),
    StableHlo.unary main_v79 main_v89 (broadcastInDim S100000x768 ![0, 1] bcast_S100000x1_S100000x768_0_1 : (⟨S100000x1, .f32⟩ : BufTy).Contents (Elt F) → (⟨S100000x768, .f32⟩ : BufTy).Contents (Elt F)),
    StableHlo.binary main_v88 main_v89 main_v90 (mulf : (⟨S100000x768, .f32⟩ : BufTy).Contents (Elt F) → (⟨S100000x768, .f32⟩ : BufTy).Contents (Elt F) → (⟨S100000x768, .f32⟩ : BufTy).Contents (Elt F)),
    StableHlo.binary main_v75 main_v90 main_v91 (addf : (⟨S100000x768, .f32⟩ : BufTy).Contents (Elt F) → (⟨S100000x768, .f32⟩ : BufTy).Contents (Elt F) → (⟨S100000x768, .f32⟩ : BufTy).Contents (Elt F)),
    StableHlo.nullary main_cst_6 (constant S_ .f32 0x00000000#32),
    StableHlo.unary main_cst_6 main_v92 (broadcastInDim S100000x768 ![] bcast_S_S100000x768 : (⟨S_, .f32⟩ : BufTy).Contents (Elt F) → (⟨S100000x768, .f32⟩ : BufTy).Contents (Elt F)),
    StableHlo.unary main_v3 main_v93 (broadcastInDim S100000x1 ![0] bcast_S100000_S100000x1_0 : (⟨S100000, .i32⟩ : BufTy).Contents (Elt F) → (⟨S100000x1, .i32⟩ : BufTy).Contents (Elt F)),
    StableHlo.ternary main_v92 main_v93 main_v91 main_v94 ((fun x i u => Host.scatterAdd scatter_S100000x768_S100000x1_S100000x768_1_0_0_1 x i u) : (⟨S100000x768, .f32⟩ : BufTy).Contents (Elt F) → (⟨S100000x1, .i32⟩ : BufTy).Contents (Elt F) → (⟨S100000x768, .f32⟩ : BufTy).Contents (Elt F) → (⟨S100000x768, .f32⟩ : BufTy).Contents (Elt F)),
    StableHlo.binary main_arg0 main_v94 main_v95 ((fun a b => concatenate S100000x1536 1 [⟨S100000x768, a⟩, ⟨S100000x768, b⟩] concatenates_S100000x768_S100000x768_S100000x1536_d1) : (⟨S100000x768, .f32⟩ : BufTy).Contents (Elt F) → (⟨S100000x768, .f32⟩ : BufTy).Contents (Elt F) → (⟨S100000x1536, .f32⟩ : BufTy).Contents (Elt F)),
    StableHlo.unary main_arg3 main_v96 ((transpose S1536x768 [1, 0] · transposes_S768x1536_S1536x768_1_0) : (⟨S768x1536, .f32⟩ : BufTy).Contents (Elt F) → (⟨S1536x768, .f32⟩ : BufTy).Contents (Elt F)),
    StableHlo.binary main_v95 main_v96 main_v97 ((fun l r => Host.dotGeneral dot_S100000x1536_S1536x768_S100000x768_1_0_0_1_n_n none l r) : (⟨S100000x1536, .f32⟩ : BufTy).Contents (Elt F) → (⟨S1536x768, .f32⟩ : BufTy).Contents (Elt F) → (⟨S100000x768, .f32⟩ : BufTy).Contents (Elt F)),
    StableHlo.unary main_arg4 main_v98 (broadcastInDim S1x768 ![1] bcast_S768_S1x768_1 : (⟨S768, .f32⟩ : BufTy).Contents (Elt F) → (⟨S1x768, .f32⟩ : BufTy).Contents (Elt F)),
    StableHlo.unary main_v98 main_v99 (broadcastInDim S100000x768 ![0, 1] bcast_S1x768_S100000x768_0_1 : (⟨S1x768, .f32⟩ : BufTy).Contents (Elt F) → (⟨S100000x768, .f32⟩ : BufTy).Contents (Elt F)),
    StableHlo.binary main_v97 main_v99 main_v100 (addf : (⟨S100000x768, .f32⟩ : BufTy).Contents (Elt F) → (⟨S100000x768, .f32⟩ : BufTy).Contents (Elt F) → (⟨S100000x768, .f32⟩ : BufTy).Contents (Elt F)),
    StableHlo.TRef.nullary main_call0.cst (constant S_ .f32 0x00000000#32),
    StableHlo.TRef.unary main_call0.cst main_call0.v0 (broadcastInDim S100000x768 ![] bcast_S_S100000x768),
    StableHlo.TRef.binary (.of main_v100 : TRef sig ⟨S100000x768, .f32⟩) main_call0.v0 main_call0.v1 maximumf,
    StableHlo.binary main_arg0 main_v101 main_v102 (addf : (⟨S100000x768, .f32⟩ : BufTy).Contents (Elt F) → (⟨S100000x768, .f32⟩ : BufTy).Contents (Elt F) → (⟨S100000x768, .f32⟩ : BufTy).Contents (Elt F)),
    StableHlo.nullary main_cst_7 (constant S_ .f32 0x00000000#32),
    StableHlo.binary main_v102 main_cst_7 main_v103 ((fun x v => Host.reduceAdd x v reducesTo_S100000x768_S100000_d1 h_S_) : (⟨S100000x768, .f32⟩ : BufTy).Contents (Elt F) → (⟨S_, .f32⟩ : BufTy).Contents (Elt F) → (⟨S100000, .f32⟩ : BufTy).Contents (Elt F)),
    StableHlo.unary main_v103 main_v104 (broadcastInDim S100000x1 ![0] bcast_S100000_S100000x1_0 : (⟨S100000, .f32⟩ : BufTy).Contents (Elt F) → (⟨S100000x1, .f32⟩ : BufTy).Contents (Elt F)),
    StableHlo.nullary main_cst_8 (constant S_ .f32 0x44400000#32),
    StableHlo.unary main_cst_8 main_v105 (broadcastInDim S100000x1 ![] bcast_S_S100000x1 : (⟨S_, .f32⟩ : BufTy).Contents (Elt F) → (⟨S100000x1, .f32⟩ : BufTy).Contents (Elt F)),
    StableHlo.binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    StableHlo.nullary main_c_9 (constantI S_ 32 0#32),
    StableHlo.TRef.nullary main_call1.cst (constant S_ .f32 0x00000000#32),
    StableHlo.TRef.binary (.of main_v102 : TRef sig ⟨S100000x768, .f32⟩) main_call1.cst main_call1.v0 (fun x v => Host.reduceAdd x v reducesTo_S100000x768_S100000_d1 h_S_),
    StableHlo.TRef.unary main_call1.v0 main_call1.v1 (broadcastInDim S100000x1 ![0] bcast_S100000_S100000x1_0),
    StableHlo.TRef.nullary main_call1.cst_0 (constant S_ .f32 0x44400000#32),
    StableHlo.TRef.unary main_call1.cst_0 main_call1.v2 (broadcastInDim S100000x1 ![] bcast_S_S100000x1),
    StableHlo.TRef.binary main_call1.v1 main_call1.v2 main_call1.v3 Host.divf,
    StableHlo.TRef.unary main_call1.v3 main_call1.v4 (broadcastInDim S100000x768 ![0, 1] bcast_S100000x1_S100000x768_0_1),
    StableHlo.TRef.binary (.of main_v102 : TRef sig ⟨S100000x768, .f32⟩) main_call1.v4 main_call1.v5 subf,
    StableHlo.TRef.binary main_call1.v5 main_call1.v5 main_call1.v6 mulf,
    StableHlo.TRef.unary (.of main_c_9 : TRef sig ⟨S_, .i32⟩) main_call1.v7 (sitofp .f32),
    StableHlo.TRef.nullary main_call1.cst_1 (constant S_ .f32 0x44400000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x768_S100000_d1 h_S_),
    StableHlo.TRef.unary main_call1.v9 main_call1.v10 (broadcastInDim S100000x1 ![0] bcast_S100000_S100000x1_0),
    StableHlo.TRef.unary main_call1.v8 main_call1.v11 (broadcastInDim S100000x1 ![] bcast_S_S100000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S100000x1 ![] bcast_S_S100000x1),
    StableHlo.TRef.ternary main_call1.v13 main_call1.v12 main_call1.call0.v1 main_call1.call0.v2 (fun p a b => select (broadcastInDim S100000x1 ![] bcast_S_S100000x1 p) a b) ]

/-- The operations of @main's statements 121–134, in order: centring, the reciprocal square root, scale and shift. -/
abbrev ops2 : List (HloOp τ sig (Elt F)) :=
  [ StableHlo.unary main_v106 main_v108 (broadcastInDim S100000x768 ![0, 1] bcast_S100000x1_S100000x768_0_1 : (⟨S100000x1, .f32⟩ : BufTy).Contents (Elt F) → (⟨S100000x768, .f32⟩ : BufTy).Contents (Elt F)),
    StableHlo.binary main_v102 main_v108 main_v109 (subf : (⟨S100000x768, .f32⟩ : BufTy).Contents (Elt F) → (⟨S100000x768, .f32⟩ : BufTy).Contents (Elt F) → (⟨S100000x768, .f32⟩ : BufTy).Contents (Elt F)),
    StableHlo.nullary main_cst_10 (constant S_ .f32 0x3727C5AC#32),
    StableHlo.unary main_cst_10 main_v110 (broadcastInDim S100000x1 ![] bcast_S_S100000x1 : (⟨S_, .f32⟩ : BufTy).Contents (Elt F) → (⟨S100000x1, .f32⟩ : BufTy).Contents (Elt F)),
    StableHlo.binary main_v107 main_v110 main_v111 (addf : (⟨S100000x1, .f32⟩ : BufTy).Contents (Elt F) → (⟨S100000x1, .f32⟩ : BufTy).Contents (Elt F) → (⟨S100000x1, .f32⟩ : BufTy).Contents (Elt F)),
    StableHlo.unary main_v111 main_v112 (Host.rsqrt : (⟨S100000x1, .f32⟩ : BufTy).Contents (Elt F) → (⟨S100000x1, .f32⟩ : BufTy).Contents (Elt F)),
    StableHlo.unary main_v112 main_v113 (broadcastInDim S100000x768 ![0, 1] bcast_S100000x1_S100000x768_0_1 : (⟨S100000x1, .f32⟩ : BufTy).Contents (Elt F) → (⟨S100000x768, .f32⟩ : BufTy).Contents (Elt F)),
    StableHlo.binary main_v109 main_v113 main_v114 (mulf : (⟨S100000x768, .f32⟩ : BufTy).Contents (Elt F) → (⟨S100000x768, .f32⟩ : BufTy).Contents (Elt F) → (⟨S100000x768, .f32⟩ : BufTy).Contents (Elt F)),
    StableHlo.unary main_arg5 main_v115 (broadcastInDim S1x768 ![1] bcast_S768_S1x768_1 : (⟨S768, .f32⟩ : BufTy).Contents (Elt F) → (⟨S1x768, .f32⟩ : BufTy).Contents (Elt F)),
    StableHlo.unary main_v115 main_v116 (broadcastInDim S100000x768 ![0, 1] bcast_S1x768_S100000x768_0_1 : (⟨S1x768, .f32⟩ : BufTy).Contents (Elt F) → (⟨S100000x768, .f32⟩ : BufTy).Contents (Elt F)),
    StableHlo.binary main_v114 main_v116 main_v117 (mulf : (⟨S100000x768, .f32⟩ : BufTy).Contents (Elt F) → (⟨S100000x768, .f32⟩ : BufTy).Contents (Elt F) → (⟨S100000x768, .f32⟩ : BufTy).Contents (Elt F)),
    StableHlo.unary main_arg6 main_v118 (broadcastInDim S1x768 ![1] bcast_S768_S1x768_1 : (⟨S768, .f32⟩ : BufTy).Contents (Elt F) → (⟨S1x768, .f32⟩ : BufTy).Contents (Elt F)),
    StableHlo.unary main_v118 main_v119 (broadcastInDim S100000x768 ![0, 1] bcast_S1x768_S100000x768_0_1 : (⟨S1x768, .f32⟩ : BufTy).Contents (Elt F) → (⟨S100000x768, .f32⟩ : BufTy).Contents (Elt F)),
    StableHlo.binary main_v117 main_v119 main_v120 (addf : (⟨S100000x768, .f32⟩ : BufTy).Contents (Elt F) → (⟨S100000x768, .f32⟩ : BufTy).Contents (Elt F) → (⟨S100000x768, .f32⟩ : BufTy).Contents (Elt F)) ]

/-- @main's operations, in order. -/
abbrev ops : List (HloOp τ sig (Elt F)) := ops0 ++ (ops1 ++ ops2)

/-- The fold over two lines run one after the other. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

theorem part0_eq (c : Dev nD) : main_part0 (F := F) c = seq ops0 := rfl

-- eighty-four binds re-associated: the rewrite under the chain recurses once per statement
set_option maxRecDepth 4096 in
/-- The second window is its straight line: the functions' definitions unfolded at their calls, both sides are one
    chain of steps once sequencing is reassociated. -/
theorem part1_eq (c : Dev nD) : main_part1 (F := F) c = seq ops1 := by
  simp only [main_part1, fn_relu.body, fn_var.body, fn_where.body, seq, bind_assoc, pure_bind]

theorem part2_eq (c : Dev nD) : main_part2 (F := F) c = seq ops2 := rfl

/-- @main is the three windows in order, hence the concatenated line. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., nullary_bufs_sub .., unary_bufs_sub .., binary_bufs_sub ..,
    unary_bufs_sub .., unary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..,
    binary_bufs_sub .., binary_bufs_sub .., nullary_bufs_sub .., unary_bufs_sub .., binary_bufs_sub .., unary_bufs_sub ..,
    unary_bufs_sub .., unary_bufs_sub .., reshape_bufs_sub .., unary_bufs_sub .., binary_bufs_sub .., unary_bufs_sub ..,
    reshape_bufs_sub .., unary_bufs_sub .., unary_bufs_sub .., binary_bufs_sub .., unary_bufs_sub .., binary_bufs_sub ..,
    binary_bufs_sub .., nullary_bufs_sub .., unary_bufs_sub .., binary_bufs_sub .., unary_bufs_sub .., unary_bufs_sub ..,
    unary_bufs_sub .., reshape_bufs_sub .., unary_bufs_sub .., binary_bufs_sub .., unary_bufs_sub .., reshape_bufs_sub ..⟩
theorem ops1_sub : (ops1 : List (HloOp τ sig (Elt F))).Forall fun op => op.bufs ⊆ tcRefs τ sig :=
  ⟨unary_bufs_sub .., unary_bufs_sub .., binary_bufs_sub .., unary_bufs_sub .., binary_bufs_sub .., binary_bufs_sub ..,
    nullary_bufs_sub .., unary_bufs_sub .., binary_bufs_sub .., unary_bufs_sub .., unary_bufs_sub .., unary_bufs_sub ..,
    reshape_bufs_sub .., unary_bufs_sub .., binary_bufs_sub .., unary_bufs_sub .., reshape_bufs_sub .., unary_bufs_sub ..,
    unary_bufs_sub .., binary_bufs_sub .., unary_bufs_sub .., binary_bufs_sub .., binary_bufs_sub .., nullary_bufs_sub ..,
    unary_bufs_sub .., binary_bufs_sub .., unary_bufs_sub .., unary_bufs_sub .., unary_bufs_sub .., reshape_bufs_sub ..,
    unary_bufs_sub .., binary_bufs_sub .., unary_bufs_sub .., reshape_bufs_sub .., unary_bufs_sub .., unary_bufs_sub ..,
    binary_bufs_sub .., unary_bufs_sub .., binary_bufs_sub .., binary_bufs_sub .., nullary_bufs_sub .., unary_bufs_sub ..,
    unary_bufs_sub .., ternary_bufs_sub .., binary_bufs_sub .., unary_bufs_sub .., binary_bufs_sub .., unary_bufs_sub ..,
    unary_bufs_sub .., binary_bufs_sub .., nullary_bufs_sub .., unary_bufs_sub .., binary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..⟩
theorem ops2_sub : (ops2 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩
theorem ops_sub : (ops : List (HloOp τ sig (Elt F))).Forall fun op => op.bufs ⊆ tcRefs τ sig :=
  List.forall_append.mpr ⟨ops0_sub, List.forall_append.mpr ⟨ops1_sub, ops2_sub⟩⟩

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The idealized reference program's value, stage by stage, as pure functions of its argument arrays: the operations
  of its @main in order, grouped as the row gather of the node features by the (wrapped) source indices, the five
  masked affine messages (x · W_tᵀ + b_t) · [type = t] added up from zero in the order t = 0 … 4, the scatter-add
  into the target nodes, and the update: one product of the concatenated [features | aggregate] rows with the
  transposed update matrix, the bias, the positive part, the residual sum and the row-wise normalisation
  (mean, biased variance, reciprocal square root, scale and shift).
-/
import proofs.«147601_j867583393905_2_alg».proof.Proof.Gen.ReferenceIdeal

noncomputable section

namespace Cert.ReferenceIdeal.Stages

open Idealize.ShloMosaic Cert.ReferenceIdeal
open Cert.ReferenceIdeal.Facts₀

variable {F : FTy → Type} [FloatOps F]

/-- One row of the edge table, as a flat array. -/
def edgeRow (r : Nat) (h : S2x100000.Slices ![r, 0] S1x100000) (a7 : Vec F S2x100000 .i32) : Vec F S100000 .i32 :=
  shapeCast S100000 (extractStridedSlice S1x100000 ![r, 0] a7 h) shapeCasts_S1x100000_S100000

/-- The source indices, a negative one wrapped by the number of nodes, as a column of start indices. -/
def srcIdx (a7 : Vec F S2x100000 .i32) : Vec F S100000x1 .i32 :=
  broadcastInDim S100000x1 ![0] bcast_S100000_S100000x1_0
    (select (cmpi .slt (edgeRow 0 slices_S2x100000_S1x100000_0_0 a7) (broadcastInDim S100000 ![] bcast_S_S100000 (constantI S_ 32 0#32)))
      (addi (edgeRow 0 slices_S2x100000_S1x100000_0_0 a7) (broadcastInDim S100000 ![] bcast_S_S100000 (constantI S_ 32 100000#32)))
      (edgeRow 0 slices_S2x100000_S1x100000_0_0 a7))

/-- The node features' rows at the source indices. -/
def srcRows (a0 : Vec F S100000x768 .f32) (a7 : Vec F S2x100000 .i32) : Vec F S100000x768 .f32 :=
  Host.gather gather_S100000x768_S100000x1_S100000x768_1_0_n_n_0_1_1768 a0 (srcIdx a7)

/-- The target indices as a column of start indices. -/
def tgtIdx (a7 : Vec F S2x100000 .i32) : Vec F S100000x1 .i32 :=
  broadcastInDim S100000x1 ![0] bcast_S100000_S100000x1_0 (edgeRow 1 slices_S2x100000_S1x100000_1_0 a7)

/-- The zero array the messages are added up from, and the scatter starts from. -/
def zeros : Vec F S100000x768 .f32 :=
  broadcastInDim S100000x768 ![] bcast_S_S100000x768 (constant S_ .f32 0x00000000#32)

/-- The indicator of "edge type = tc", as a number, spread along the rows. -/
def maskR (tc : BitVec 32) (a8 : Vec F S100000 .i32) : Vec F S100000x768 .f32 :=
  broadcastInDim S100000x768 ![0, 1] bcast_S100000x1_S100000x768_0_1
    (broadcastInDim S100000x1 ![0] bcast_S100000_S100000x1_0
      (uitofp .f32 (cmpi .eq a8 (broadcastInDim S100000 ![] bcast_S_S100000 (constantI S_ 32 tc)))))

/-- Relation type t's affine message x · W_tᵀ + b_t of every gathered row. -/
def linR (t : Nat) (h1 : S5x768x768.Slices ![t, 0, 0] S1x768x768) (h2 : S5x768.Slices ![t, 0] S1x768)
    (x : Vec F S100000x768 .f32) (a1 : Vec F S5x768x768 .f32) (a2 : Vec F S5x768 .f32) : Vec F S100000x768 .f32 :=
  addf
    (Host.dotGeneral dot_S100000x768_S768x768_S100000x768_1_0_0_1_n_n none x
      (transpose S768x768 [1, 0]
        (shapeCast S768x768 (extractStridedSlice S1x768x768 ![t, 0, 0] a1 h1) shapeCasts_S1x768x768_S768x768)
        transposes_S768x768_S768x768_1_0))
    (broadcastInDim S100000x768 ![0, 1] bcast_S1x768_S100000x768_0_1
      (broadcastInDim S1x768 ![1] bcast_S768_S1x768_1
        (shapeCast S768 (extractStridedSlice S1x768 ![t, 0] a2 h2) shapeCasts_S1x768_S768)))

/-- The masked message of relation type t. -/
def termR (t : Nat) (h1 : S5x768x768.Slices ![t, 0, 0] S1x768x768) (h2 : S5x768.Slices ![t, 0] S1x768) (tc : BitVec 32)
    (x : Vec F S100000x768 .f32) (a1 : Vec F S5x768x768 .f32) (a2 : Vec F S5x768 .f32) (a8 : Vec F S100000 .i32) :
    Vec F S100000x768 .f32 :=
  mulf (linR t h1 h2 x a1 a2) (maskR tc a8)

/-- The messages: the five masked terms added up from zero, type 0 first. -/
def msgsR (x : Vec F S100000x768 .f32) (a1 : Vec F S5x768x768 .f32) (a2 : Vec F S5x768 .f32) (a8 : Vec F S100000 .i32) :
    Vec F S100000x768 .f32 :=
  addf (addf (addf (addf (addf zeros
    (termR 0 slices_S5x768x768_S1x768x768_0_0_0 slices_S5x768_S1x768_0_0 0#32 x a1 a2 a8))
    (termR 1 slices_S5x768x768_S1x768x768_1_0_0 slices_S5x768_S1x768_1_0 1#32 x a1 a2 a8))
    (termR 2 slices_S5x768x768_S1x768x768_2_0_0 slices_S5x768_S1x768_2_0 2#32 x a1 a2 a8))
    (termR 3 slices_S5x768x768_S1x768x768_3_0_0 slices_S5x768_S1x768_3_0 3#32 x a1 a2 a8))
    (termR 4 slices_S5x768x768_S1x768x768_4_0_0 slices_S5x768_S1x768_4_0 4#32 x a1 a2 a8)

/-- The messages added up at their target nodes, from zero. -/
def aggR (msgs : Vec F S100000x768 .f32) (a7 : Vec F S2x100000 .i32) : Vec F S100000x768 .f32 :=
  Host.scatterAdd scatter_S100000x768_S100000x1_S100000x768_1_0_0_1 zeros (tgtIdx a7) msgs

/-- A vector of length 768 spread over all rows. -/
def overRows (a : Vec F S768 .f32) : Vec F S100000x768 .f32 :=
  broadcastInDim S100000x768 ![0, 1] bcast_S1x768_S100000x768_0_1 (broadcastInDim S1x768 ![1] bcast_S768_S1x768_1 a)

/-- A column spread over all columns. -/
def overCols (d : Vec F S100000x1 .f32) : Vec F S100000x768 .f32 :=
  broadcastInDim S100000x768 ![0, 1] bcast_S100000x1_S100000x768_0_1 d

/-- A scalar spread over a column. -/
def colOf (v : Vec F S_ .f32) : Vec F S100000x1 .f32 :=
  broadcastInDim S100000x1 ![] bcast_S_S100000x1 v

/-- The row sums of an array, from zero, as a column. -/
def rowSum (h : Vec F S100000x768 .f32) : Vec F S100000x1 .f32 :=
  broadcastInDim S100000x1 ![0] bcast_S100000_S100000x1_0
    (Host.reduceAdd h (constant S_ .f32 0x00000000#32) reducesTo_S100000x768_S100000_d1 h_S_)

/-- The residual sum before normalisation: the features plus the positive part of the affine update of the
    concatenated [features | aggregate] rows. -/
def hidR (a0 agg : Vec F S100000x768 .f32) (a3 : Vec F S768x1536 .f32) (a4 : Vec F S768 .f32) : Vec F S100000x768 .f32 :=
  addf a0
    (maximumf
      (addf
        (Host.dotGeneral dot_S100000x1536_S1536x768_S100000x768_1_0_0_1_n_n none
          (concatenate S100000x1536 1 [⟨S100000x768, a0⟩, ⟨S100000x768, agg⟩] concatenates_S100000x768_S100000x768_S100000x1536_d1)
          (transpose S1536x768 [1, 0] a3 transposes_S768x1536_S1536x768_1_0))
        (overRows a4))
      zeros)

/-- The row means, as a column. -/
def meanR (h : Vec F S100000x768 .f32) : Vec F S100000x1 .f32 :=
  Host.divf (rowSum h) (colOf (constant S_ .f32 0x44400000#32))

/-- The divisor of the variance: the row length less the degrees-of-freedom correction (zero here). -/
def ddofR : Vec F S_ .f32 :=
  subf (constant S_ .f32 0x44400000#32) (sitofp .f32 (constantI S_ 32 0#32))

/-- The biased row variances, as a column (the mean is formed a second time; the select keeps the quotient when
    the divisor is positive). -/
def varR (h : Vec F S100000x768 .f32) : Vec F S100000x1 .f32 :=
  select (broadcastInDim S100000x1 ![] bcast_S_S100000x1 (cmpf .ogt (ddofR (F := F)) (constant S_ .f32 0x00000000#32)))
    (Host.divf (rowSum (mulf (subf h (overCols (meanR h))) (subf h (overCols (meanR h))))) (colOf ddofR))
    (colOf (id (constant S_ .f32 0x7FC00000#32)))

/-- The row-wise normalisation with scale and shift. -/
def normR (h : Vec F S100000x768 .f32) (a5 a6 : Vec F S768 .f32) : Vec F S100000x768 .f32 :=
  addf
    (mulf
      (mulf (subf h (overCols (meanR h)))
        (overCols (Host.rsqrt (addf (varR h) (colOf (constant S_ .f32 0x3727C5AC#32))))))
      (overRows a5))
    (overRows a6)

/-- The update after the aggregation. -/
def tailR (a0 agg : Vec F S100000x768 .f32) (a3 : Vec F S768x1536 .f32) (a4 a5 a6 : Vec F S768 .f32) :
    Vec F S100000x768 .f32 :=
  normR (hidR a0 agg a3 a4) a5 a6

/-- The program's result as a function of its nine argument arrays. -/
def outR (a0 : Vec F S100000x768 .f32) (a1 : Vec F S5x768x768 .f32) (a2 : Vec F S5x768 .f32) (a3 : Vec F S768x1536 .f32)
    (a4 a5 a6 : Vec F S768 .f32) (a7 : Vec F S2x100000 .i32) (a8 : Vec F S100000 .i32) : Vec F S100000x768 .f32 :=
  tailR a0 (aggR (msgsR (srcRows a0 a7) a1 a2 a8) a7) a3 a4 a5 a6

end Cert.ReferenceIdeal.Stages

end
-- ==== Proof.RefRun.lean ====
/-
  The idealized reference program's run, read back: every weakly fair execution of its @main terminates with the
  result buffer at the composed pure term of the nine argument arrays — the row gather by the wrapped source indices,
  the five masked affine messages added up from zero, the scatter-add into the target nodes, the update product with
  bias, positive part and residual sum, and the row-wise normalisation — and with the argument arrays unchanged.
-/
import proofs.«147601_j867583393905_2_alg».proof.Proof.RefRun.Ops
import proofs.«147601_j867583393905_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one rewriting pass over the 158 operations, each shared intermediate visited once; the term left is the stages'
-- by unfolding their definitions
set_option maxRecDepth 16384 in
set_option maxHeartbeats 1600000 in
/-- The fold at the result buffer is the stages' composed term of the argument arrays: each operation's result at its
    own buffer is its function's value and at any other buffer what was there, and the definitions of the stages
    unfold to the same operations in the same order. -/
theorem out_eq (V : Valuation τ sig (Elt F)) :
    after ops V (main_v120 : DevRef τ sig)
      = Stages.outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [after_append]
  after_results_simp
  rfl

/-! No operation writes an argument buffer: the fold leaves each at its launch contents. -/

theorem arg0_eq (V : Valuation τ sig (Elt F)) :
    after ops V (main_arg0 : DevRef τ sig) = V (main_arg0 : DevRef τ sig) := by
  simp only [after_append]
  after_results_simp

theorem arg1_eq (V : Valuation τ sig (Elt F)) :
    after ops V (main_arg1 : DevRef τ sig) = V (main_arg1 : DevRef τ sig) := by
  simp only [after_append]
  after_results_simp

theorem arg2_eq (V : Valuation τ sig (Elt F)) :
    after ops V (main_arg2 : DevRef τ sig) = V (main_arg2 : DevRef τ sig) := by
  simp only [after_append]
  after_results_simp

theorem arg3_eq (V : Valuation τ sig (Elt F)) :
    after ops V (main_arg3 : DevRef τ sig) = V (main_arg3 : DevRef τ sig) := by
  simp only [after_append]
  after_results_simp

theorem arg4_eq (V : Valuation τ sig (Elt F)) :
    after ops V (main_arg4 : DevRef τ sig) = V (main_arg4 : DevRef τ sig) := by
  simp only [after_append]
  after_results_simp

theorem arg5_eq (V : Valuation τ sig (Elt F)) :
    after ops V (main_arg5 : DevRef τ sig) = V (main_arg5 : DevRef τ sig) := by
  simp only [after_append]
  after_results_simp

theorem arg6_eq (V : Valuation τ sig (Elt F)) :
    after ops V (main_arg6 : DevRef τ sig) = V (main_arg6 : DevRef τ sig) := by
  simp only [after_append]
  after_results_simp

theorem arg7_eq (V : Valuation τ sig (Elt F)) :
    after ops V (main_arg7 : DevRef τ sig) = V (main_arg7 : DevRef τ sig) := by
  simp only [after_append]
  after_results_simp

theorem arg8_eq (V : Valuation τ sig (Elt F)) :
    after ops V (main_arg8 : DevRef τ sig) = V (main_arg8 : DevRef τ sig) := by
  simp only [after_append]
  after_results_simp

/-- For any float values, from any memory with zero counters: every weakly fair execution of @main terminates with
    the result at the stages' composed term of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v120)
          = Stages.outR (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v120).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefRun

end
-- ==== Proof.Spec.lean ====
/-
  The two row formulas both programs compute, over the extended reals.

  `msg`: for one edge with gathered feature row x and type indicators ind_0 … ind_4, and for one output column with
  weight rows w_t and biases b_t, the sum from the zero word, in the order t = 0 … 4, of (Σ_k x_k · w_{t,k} + b_t) · ind_t.
  `norm`: the normalisation of one row h at column j: with μ = (Σ h)/c, d = h − μ, σ² = (Σ d²)/c, the value
  d_j · rsqrt(σ² + ε) · g + β.  `sum_two_halves`: a sum over 1536 = 768 + 768 positions is the sum over the first
  half plus the sum over the second half (no finiteness is needed: addition of extended reals is commutative and
  associative).
-/
import Idealize.ShloMosaic.PureOps.Ideal.Laws

noncomputable section

open scoped BigOperators

namespace Cert.Spec

open Idealize.ShloMosaic

/-- One relation type's masked affine message at one edge and one output column. -/
def term (x w : Fin 768 → EReal) (b ind : EReal) : EReal := (∑ k, x k * w k + b) * ind

/-- The five masked messages added up from the zero word, type 0 first. -/
def msg (x : Fin 768 → EReal) (w : Fin 5 → Fin 768 → EReal) (b ind : Fin 5 → EReal) : EReal :=
  Ideal.ofBits .f32 0x00000000#32 + term x (w 0) (b 0) (ind 0) + term x (w 1) (b 1) (ind 1)
    + term x (w 2) (b 2) (ind 2) + term x (w 3) (b 3) (ind 3) + term x (w 4) (b 4) (ind 4)

/-- The row-wise normalisation at one column, with divisor c and offset ε given as extended reals. -/
def norm (c ε : EReal) (h : Fin 768 → EReal) (g β : EReal) (j : Fin 768) : EReal :=
  (h j - Ideal.div (∑ k, h k) c)
      * Ideal.rsqrt (Ideal.div (∑ k, (h k - Ideal.div (∑ k, h k) c) * (h k - Ideal.div (∑ k, h k) c)) c + ε)
      * g + β

/-- The residual sum before normalisation, the update formed from two products (the kernel's form): column j is
    nf_j + max (Σ_k nf_k · w1[j,k] + Σ_k ag_k · w2[j,k] + b_j, 0-word). -/
def hid2 (nf ag : Fin 768 → EReal) (w1 w2 : Fin 768 → Fin 768 → EReal) (b : Fin 768 → EReal) : Fin 768 → EReal :=
  fun j => nf j + max ((∑ k, nf k * w1 j k + ∑ k, ag k * w2 j k) + b j) (Ideal.ofBits .f32 0x00000000#32)

/-- The same from one product of the concatenated row with the full-width matrix (the reference's form). -/
def hid1 (nf : Fin 768 → EReal) (cat : Fin 1536 → EReal) (w : Fin 768 → Fin 1536 → EReal) (b : Fin 768 → EReal) :
    Fin 768 → EReal :=
  fun j => nf j + max ((∑ k : Fin 1536, cat k * w j k) + b j) (Ideal.ofBits .f32 0x00000000#32)

/-- A sum over 1536 positions is the sum over the first 768 plus the sum over the last 768. -/
theorem sum_two_halves (f : Fin 1536 → EReal) :
    ∑ k : Fin 1536, f k
      = ∑ k : Fin 768, f ⟨k.val, by omega⟩ + ∑ k : Fin 768, f ⟨768 + k.val, by omega⟩ := by
  have h := Fin.sum_univ_add (a := 768) (b := 768) (f := fun i : Fin (768 + 768) => f ⟨i.val, i.isLt⟩)
  refine Eq.trans ?_ (h.trans ?_)
  · rfl
  · rfl

/-- The two forms of the residual sum agree when the concatenated row is [nf | ag] and the two matrices are the two
    halves of the full-width one. -/
theorem hid1_eq_hid2 (nf ag : Fin 768 → EReal) (cat : Fin 1536 → EReal) (w : Fin 768 → Fin 1536 → EReal)
    (w1 w2 : Fin 768 → Fin 768 → EReal) (b : Fin 768 → EReal)
    (hc1 : ∀ k : Fin 768, cat ⟨k.val, by omega⟩ = nf k) (hc2 : ∀ k : Fin 768, cat ⟨768 + k.val, by omega⟩ = ag k)
    (hw1 : ∀ j k : Fin 768, w j ⟨k.val, by omega⟩ = w1 j k) (hw2 : ∀ j k : Fin 768, w j ⟨768 + k.val, by omega⟩ = w2 j k) :
    hid1 nf cat w b = hid2 nf ag w1 w2 b := by
  funext j
  unfold hid1 hid2
  rw [sum_two_halves]
  simp only [hc1, hc2, hw1, hw2]

end Cert.Spec

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KMath0.lean ====
/-
  The first region's body at one entry: on a block of 1000 edges, entry (r, j) of the result is the sum from the
  zero word, over the relation types t = 0 … 4 in order, of (Σ_k x[r,k] · W[t,j,k] + b[t,j]) · [type[r] = t], the
  indicator being the one-bit comparison widened to a word and converted to a number.
-/
import proofs.«147601_j867583393905_2_alg».proof.Proof.KStages
import proofs.«147601_j867583393905_2_alg».proof.Proof.Spec
import proofs.«147601_j867583393905_2_alg».proof.Proof.LibRowsDot
import proofs.«147601_j867583393905_2_alg».proof.Proof.LibKeepdimsColumn
import Idealize.ShloMosaic.Lib.ValueLayout
import Idealize.ShloMosaic.Lib.Pipeline.Value

noncomputable section

open scoped BigOperators

namespace Cert.KernelIdeal.Math0

open Idealize.ShloMosaic Idealize.ShloMosaic.ValueIdx Cert.KernelIdeal Cert.KernelIdeal.Stages
open Cert.KernelIdeal.Facts₀

/-- The indicator of "type word = tc" as the kernel forms it. -/
def indK (ty tc : BitVec 32) : EReal :=
  FloatOps.sitofp (F := Ideal) .f32 ((IntOp.cmpi .eq ty tc).setWidth 32)

/-- One accumulation step of the body: the accumulator plus the masked affine message of relation type tc. -/
def stepK (tc : BitVec 32) (X : FVec Ideal S1000x768 .bf16) (ty : IVec S1000x1 32) (W : FVec Ideal S768x768 .bf16)
    (b : FVec Ideal S768 .f32) (acc : Vec Ideal S1000x768 .f32) : FVec Ideal S1000x768 .f32 :=
  shapeCast S1000x768
    (addf acc
      (mulf
        (addf (matmul dot_S1000x768_S768x768_S1000x768_1_1_0_0_n_n none X W (constant S1000x768 .f32 0x00000000#32))
          (broadcastTo S1000x768 (shapeCast S1x768 b shapeCasts_S768_S1x768) broadcasts_S1x768_S1000x768))
        (broadcastTo S1000x768 (sitofp .f32 (extui 32 (cmpi .eq ty (broadcast S1000x1 tc)) natLt_1_32))
          broadcasts_S1000x1_S1000x768)))
    shapeCasts_S1000x768_S1000x768

theorem dot_eq : dot_S1000x768_S768x768_S1000x768_1_1_0_0_n_n = DotDims.transposedRhs 1000 768 768 := rfl

/-- The step at an entry. -/
theorem stepK_apply (tc : BitVec 32) (X : FVec Ideal S1000x768 .bf16) (ty : IVec S1000x1 32) (W : FVec Ideal S768x768 .bf16)
    (b : FVec Ideal S768 .f32) (acc : Vec Ideal S1000x768 .f32) (r : Fin 1000) (j : Fin 768) :
    stepK tc X ty W b acc (ix2 r j)
      = acc (ix2 r j) + ((∑ k : Fin 768, X (ix2 r k) * W (ix2 j k)) + b (ix1 j)) * indK (ty (ix2 r (0 : Fin 1))) tc := by
  unfold stepK
  rw [shapeCast_self, addf_apply, mulf_apply, addf_apply]
  refine congrArg (acc (ix2 r j) + ·) ?_
  refine congrArg₂ (· * ·) (congrArg₂ (· + ·) ?_ ?_) ?_
  · exact Cert.RowsDot.matmul_zero_at_of_eq _ dot_eq X W r j
  · rw [broadcastTo_1b_ab_apply _ broadcasts_S1x768_S1000x768 r j,
      shapeCast_a_1a_apply b shapeCasts_S768_S1x768 (0 : Fin 1) j]
  · rw [Cert.Gcn.Lib.broadcastTo_a1_ab_apply _ broadcasts_S1000x1_S1000x768 r j]
    rfl

/-- Relation type t's weight matrix, cut out of the table of five, at (j, k). -/
theorem wslice_apply (t : Nat) (ht : t < 5) (inb : ∀ a, ![t, 0, 0] a + S1x768x768.size a ≤ S5x768x768.size a)
    (x2 : Vec Ideal S5x768x768 .f32) (j k : Fin 768) :
    shapeCast S768x768 (View.ld x2 (Rect.unit (s := S5x768x768) ![t, 0, 0] S1x768x768.size inb)) shapeCasts_S1x768x768_S768x768
        (ix2 j k)
      = x2 (ix3 (⟨t, ht⟩ : Fin 5) j k) := by
  rw [shapeCast_1ab_ab_apply]
  show x2 ((Rect.unit (s := S5x768x768) ![t, 0, 0] S1x768x768.size inb).emb (ix3 (0 : Fin 1) j k)) = _
  refine congrArg x2 (funext fun a => Fin.ext ?_)
  rw [Rect.emb_apply]
  match a with
  | ⟨0, _⟩ => show t + 1 * 0 = t; omega
  | ⟨1, _⟩ => show 0 + 1 * j.val = j.val; omega
  | ⟨2, _⟩ => show 0 + 1 * k.val = k.val; omega

/-- Relation type t's bias row, cut out of the table of five, at j. -/
theorem bslice_apply (t : Nat) (ht : t < 5) (inb : ∀ a, ![t, 0] a + S1x768.size a ≤ S5x768.size a)
    (x3 : Vec Ideal S5x768 .f32) (j : Fin 768) :
    shapeCast S768 (View.ld x3 (Rect.unit (s := S5x768) ![t, 0] S1x768.size inb)) shapeCasts_S1x768_S768 (ix1 j)
      = x3 (ix2 (⟨t, ht⟩ : Fin 5) j) := by
  rw [shapeCast_1a_a_apply]
  show x3 ((Rect.unit (s := S5x768) ![t, 0] S1x768.size inb).emb (ix2 (0 : Fin 1) j)) = _
  refine congrArg x3 (funext fun a => Fin.ext ?_)
  rw [Rect.emb_apply]
  match a with
  | ⟨0, _⟩ => show t + 1 * 0 = t; omega
  | ⟨1, _⟩ => show 0 + 1 * j.val = j.val; omega

/-- The five stores' payloads are five accumulation steps. -/
theorem pay4_eq (v4 : Vec Ideal S1000x768 .f32) (v7 : Vec Ideal S1000x1 .i32) (v9 : Vec Ideal S1x768x768 .f32)
    (v12 : Vec Ideal S1x768 .f32) (v22 : Vec Ideal S1000x768 .f32) :
    Gen.k0_pay4 v4 v7 v9 v12 v22
      = stepK 0#32 (Gen.k0_pay2 v4) (Gen.k0_pay3 v7)
          (truncf .bf16 (shapeCast S768x768 v9 shapeCasts_S1x768x768_S768x768) bitsLt_bf16_f32)
          (shapeCast S768 v12 shapeCasts_S1x768_S768) v22 := rfl
theorem pay7_eq (v6 : FVec Ideal S1000x768 .bf16) (v8 : IVec S1000x1 32) (v31 : FVec Ideal S768x768 .bf16)
    (v33 : FVec Ideal S768 .f32) (v42 : Vec Ideal S1000x768 .f32) :
    Gen.k0_pay7 v6 v8 v31 v33 v42 = stepK 1#32 v6 v8 v31 v33 v42 := rfl
theorem pay8_eq (v6 : FVec Ideal S1000x768 .bf16) (v8 : IVec S1000x1 32) (v49 : Vec Ideal S1x768x768 .f32)
    (v52 : Vec Ideal S1x768 .f32) (v62 : Vec Ideal S1000x768 .f32) :
    Gen.k0_pay8 v6 v8 v49 v52 v62
      = stepK 2#32 v6 v8 (truncf .bf16 (shapeCast S768x768 v49 shapeCasts_S1x768x768_S768x768) bitsLt_bf16_f32)
          (shapeCast S768 v52 shapeCasts_S1x768_S768) v62 := rfl
theorem pay10_eq (v6 : FVec Ideal S1000x768 .bf16) (v8 : IVec S1000x1 32) (v71 : FVec Ideal S768x768 .bf16)
    (v72 : Vec Ideal S1x768 .f32) (v82 : Vec Ideal S1000x768 .f32) :
    Gen.k0_pay10 v6 v8 v71 v72 v82 = stepK 3#32 v6 v8 v71 (shapeCast S768 v72 shapeCasts_S1x768_S768) v82 := rfl
theorem pay11_eq (v6 : FVec Ideal S1000x768 .bf16) (v8 : IVec S1000x1 32) (v89 : Vec Ideal S1x768x768 .f32)
    (v92 : Vec Ideal S1x768 .f32) (v102 : Vec Ideal S1000x768 .f32) :
    Gen.k0_pay11 v6 v8 v89 v92 v102
      = stepK 4#32 v6 v8 (truncf .bf16 (shapeCast S768x768 v89 shapeCasts_S1x768x768_S768x768) bitsLt_bf16_f32)
          (shapeCast S768 v92 shapeCasts_S1x768_S768) v102 := rfl

/-- The feature block enters the products unchanged (a change of float format is the identity here). -/
theorem pay2_apply (x0 : Vec Ideal S1000x768 .f32) (i : S1000x768.Idx) : Gen.k0_pay2 x0 i = x0 i := by
  unfold Gen.k0_pay2; rw [truncf_apply, shapeCast_self]
theorem pay3_eq (x1 : Vec Ideal S1000x1 .i32) : Gen.k0_pay3 (F := Ideal) x1 = x1 := by
  unfold Gen.k0_pay3; rw [shapeCast_self]
theorem pay1_apply (i : S1000x768.Idx) : Gen.k0_pay1 (F := Ideal) i = Ideal.ofBits .f32 0x00000000#32 := by
  unfold Gen.k0_pay1; rw [shapeCast_self]; rfl

/-- The body's result on a block, at entry (r, j): the row formula of the block's row r, the weight rows
    W[t, j, ·], the biases b[t, j] and the indicators of the row's type word. -/
theorem pay0_apply (x0 : Vec Ideal S1000x768 .f32) (x1 : Vec Ideal S1000x1 .i32) (x2 : Vec Ideal S5x768x768 .f32)
    (x3 : Vec Ideal S5x768 .f32) (r : Fin 1000) (j : Fin 768) :
    pay0 x0 x1 x2 x3 (ix2 r j)
      = Cert.Spec.msg (fun k => x0 (ix2 r k)) (fun t k => x2 (ix3 t j k)) (fun t => x3 (ix2 t j))
          (fun t => indK (x1 (ix2 r (0 : Fin 1))) (BitVec.ofNat 32 t.val)) := by
  unfold pay0 Cert.Spec.msg Cert.Spec.term
  rw [pay11_eq, stepK_apply, pay10_eq, stepK_apply, pay8_eq, stepK_apply, pay7_eq, stepK_apply, pay4_eq, stepK_apply,
    pay1_apply, pay3_eq]
  simp only [pay2_apply, truncf_apply, Gen.k0_pay5, Gen.k0_pay6, Gen.k0_pay9,
    wslice_apply 0 (by decide), wslice_apply 1 (by decide), wslice_apply 2 (by decide), wslice_apply 3 (by decide),
    wslice_apply 4 (by decide), bslice_apply 0 (by decide), bslice_apply 1 (by decide), bslice_apply 2 (by decide),
    bslice_apply 3 (by decide), bslice_apply 4 (by decide)]
  rfl

/-- Row e of a tall array is row e mod 1000 of its block e / 1000. -/
theorem rows1000_at (X : Vec Ideal S100000x768 .f32) (e : Fin 100000) (k : Fin 768) (h1 : e.val / 1000 < 100)
    (h2 : e.val % 1000 < 1000) :
    rows1000 (F := Ideal) (e := .f32) X ⟨e.val / 1000, h1⟩ (ix2 (⟨e.val % 1000, h2⟩ : Fin 1000) k) = X (ix2 e k) := by
  unfold rows1000
  refine congrArg X (congrArg (fun a : Fin 100000 => ix2 a k) (Fin.ext ?_))
  show 1000 * (e.val / 1000) + e.val % 1000 = e.val
  exact Nat.div_add_mod e.val 1000
theorem col1000_at (X : Vec Ideal S100000x1 .i32) (e : Fin 100000) (u : Fin 1) (h1 : e.val / 1000 < 100)
    (h2 : e.val % 1000 < 1000) :
    col1000 (F := Ideal) (e := .i32) X ⟨e.val / 1000, h1⟩ (ix2 (⟨e.val % 1000, h2⟩ : Fin 1000) u) = X (ix2 e u) := by
  unfold col1000
  refine congrArg X (congrArg (fun a : Fin 100000 => ix2 a u) (Fin.ext ?_))
  show 1000 * (e.val / 1000) + e.val % 1000 = e.val
  exact Nat.div_add_mod e.val 1000

/-- The first region's array at (e, j): the row formula of edge e. -/
theorem G0_apply (X : Vec Ideal S100000x768 .f32) (TY : Vec Ideal S100000x1 .i32) (W : Vec Ideal S5x768x768 .f32)
    (B : Vec Ideal S5x768 .f32) (e : Fin 100000) (j : Fin 768) :
    G0 X TY W B (ix2 e j)
      = Cert.Spec.msg (fun k => X (ix2 e k)) (fun t k => W (ix3 t j k)) (fun t => B (ix2 t j))
          (fun t => indK (TY (ix2 e (0 : Fin 1))) (BitVec.ofNat 32 t.val)) := by
  have h1 : e.val / 1000 < 100 := by have := e.isLt; omega
  have h2 : e.val % 1000 < 1000 := Nat.mod_lt _ (by norm_num)
  show pay0 (rows1000 (e := .f32) X ⟨e.val / 1000, h1⟩) (col1000 (e := .i32) TY ⟨e.val / 1000, h1⟩) W B
      (ix2 (⟨e.val % 1000, h2⟩ : Fin 1000) j) = _
  rw [pay0_apply]
  simp only [rows1000_at, col1000_at]

end Cert.KernelIdeal.Math0

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.RMath0.lean ====
/-
  The reference's messages at one entry: entry (e, j) is the sum from the zero word, over the relation types
  t = 0 … 4 in order, of (Σ_k x[e,k] · W[t,j,k] + b[t,j]) · [type[e] = t], the indicator being the one-bit comparison
  converted to a number.
-/
import proofs.«147601_j867583393905_2_alg».proof.Proof.RefStages
import proofs.«147601_j867583393905_2_alg».proof.Proof.Spec
import proofs.«147601_j867583393905_2_alg».proof.Proof.LibPlainDot
import proofs.«147601_j867583393905_2_alg».proof.Proof.LibBcastChain
import Idealize.ShloMosaic.Lib.ValueLayout
import Idealize.ShloMosaic.Lib.Pipeline.Value

noncomputable section

open scoped BigOperators

namespace Cert.ReferenceIdeal.Math0

open Idealize.ShloMosaic Idealize.ShloMosaic.ValueIdx Cert.ReferenceIdeal Cert.ReferenceIdeal.Stages
open Cert.ReferenceIdeal.Facts₀ Cert.Lib.BcastChain

/-- The indicator of "type word = tc" as the reference forms it. -/
def indR (ty tc : BitVec 32) : EReal :=
  FloatOps.uitofp (F := Ideal) .f32 (IntOp.cmpi .eq ty tc)

theorem zeros_apply (i : S100000x768.Idx) : zeros (F := Ideal) i = Ideal.ofBits .f32 0x00000000#32 := by
  unfold zeros; rw [overAll_apply]; rfl

theorem maskR_apply (tc : BitVec 32) (a8 : Vec Ideal S100000 .i32) (e : Fin 100000) (j : Fin 768) :
    maskR (F := Ideal) tc a8 (ix2 e j) = indR (a8 (ix1 e)) tc := by
  unfold maskR
  rw [overCols_apply (n := 100000) (c := 768)]
  show FloatOps.uitofp (F := Ideal) .f32 (IntOp.cmpi .eq (a8 (ix1 e))
      (broadcastInDim S100000 ![] bcast_S_S100000 (constantI S_ 32 tc) (ix1 e))) = _
  rw [overAll_apply]; rfl

theorem dot_eq : dot_S100000x768_S768x768_S100000x768_1_0_0_1_n_n = DotDims.plain 100000 768 768 := rfl

theorem linR_apply (t : Nat) (ht : t < 5) (h1 : S5x768x768.Slices ![t, 0, 0] S1x768x768) (h2 : S5x768.Slices ![t, 0] S1x768)
    (x : Vec Ideal S100000x768 .f32) (a1 : Vec Ideal S5x768x768 .f32) (a2 : Vec Ideal S5x768 .f32)
    (e : Fin 100000) (j : Fin 768) :
    linR t h1 h2 x a1 a2 (ix2 e j)
      = (∑ k : Fin 768, x (ix2 e k) * a1 (ix3 (⟨t, ht⟩ : Fin 5) j k)) + a2 (ix2 (⟨t, ht⟩ : Fin 5) j) := by
  unfold linR
  rw [addf_apply]
  refine congrArg₂ (· + ·) ?_ ?_
  · show FloatOps.dotGeneral (F := Ideal) (φ₁ := .f32) (φ₂ := .f32) dot_S100000x768_S768x768_S100000x768_1_0_0_1_n_n none .single x _ (ix2 e j) = _
    rw [Cert.Lib.PlainDot.dotGeneral_eq _ dot_eq, Cert.Lib.PlainDot.rowsByCols_apply]
    refine Finset.sum_congr rfl fun k _ => congrArg (x (ix2 e k) * ·) ?_
    show transpose S768x768 [1, 0] _ transposes_S768x768_S768x768_1_0 (ix2 k j) = _
    rw [transpose_ix2_apply, shapeCast_1ab_ab_apply]
    exact extractStridedSlice_apply _ _ _ _ _ (fun ax => by
      match ax with
      | ⟨0, _⟩ => exact (Nat.add_zero _).symm
      | ⟨1, _⟩ => exact (Nat.zero_add _).symm
      | ⟨2, _⟩ => exact (Nat.zero_add _).symm)
  · rw [overRows_apply (n := 100000) (c := 768), shapeCast_1a_a_apply]
    exact extractStridedSlice_apply _ _ _ _ _ (fun ax => by
      match ax with
      | ⟨0, _⟩ => exact (Nat.add_zero _).symm
      | ⟨1, _⟩ => exact (Nat.zero_add _).symm)

theorem termR_apply (t : Nat) (ht : t < 5) (h1 : S5x768x768.Slices ![t, 0, 0] S1x768x768) (h2 : S5x768.Slices ![t, 0] S1x768)
    (tc : BitVec 32) (x : Vec Ideal S100000x768 .f32) (a1 : Vec Ideal S5x768x768 .f32) (a2 : Vec Ideal S5x768 .f32)
    (a8 : Vec Ideal S100000 .i32) (e : Fin 100000) (j : Fin 768) :
    termR t h1 h2 tc x a1 a2 a8 (ix2 e j)
      = Cert.Spec.term (fun k => x (ix2 e k)) (fun k => a1 (ix3 (⟨t, ht⟩ : Fin 5) j k)) (a2 (ix2 (⟨t, ht⟩ : Fin 5) j))
          (indR (a8 (ix1 e)) tc) := by
  unfold termR Cert.Spec.term
  rw [mulf_apply, linR_apply t ht, maskR_apply]

/-- The messages at (e, j): the row formula of edge e. -/
theorem msgsR_apply (x : Vec Ideal S100000x768 .f32) (a1 : Vec Ideal S5x768x768 .f32) (a2 : Vec Ideal S5x768 .f32)
    (a8 : Vec Ideal S100000 .i32) (e : Fin 100000) (j : Fin 768) :
    msgsR x a1 a2 a8 (ix2 e j)
      = Cert.Spec.msg (fun k => x (ix2 e k)) (fun t k => a1 (ix3 t j k)) (fun t => a2 (ix2 t j))
          (fun t => indR (a8 (ix1 e)) (BitVec.ofNat 32 t.val)) := by
  unfold msgsR Cert.Spec.msg
  rw [addf_apply, addf_apply, addf_apply, addf_apply, addf_apply, zeros_apply,
    termR_apply 0 (by decide), termR_apply 1 (by decide), termR_apply 2 (by decide), termR_apply 3 (by decide),
    termR_apply 4 (by decide)]
  rfl

end Cert.ReferenceIdeal.Math0

end
-- ==== Proof.Bridge0.lean ====
/-
  The two programs' messages are one array: at every entry both are the same row formula of the same gathered
  feature row, weight rows, biases and type indicators (the kernel widens the one-bit comparison to a word and
  reads it signed, the reference reads the bit unsigned: both give 0 or 1), so the aggregates scattered from them
  are one array too.
-/
import proofs.«147601_j867583393905_2_alg».proof.Proof.KMath0
import proofs.«147601_j867583393905_2_alg».proof.Proof.RMath0

noncomputable section

open scoped BigOperators

namespace Cert.Bridge0

open Idealize.ShloMosaic Idealize.ShloMosaic.ValueIdx

/-- A one-bit comparison widened to a word and read signed is the bit read unsigned. -/
theorem ind_eq (ty tc : BitVec 32) : Cert.KernelIdeal.Math0.indK ty tc = Cert.ReferenceIdeal.Math0.indR ty tc := by
  unfold Cert.KernelIdeal.Math0.indK Cert.ReferenceIdeal.Math0.indR
  generalize IntOp.cmpi .eq ty tc = c
  show (((c.setWidth 32).toInt : ℝ) : EReal) = ((c.toNat : ℝ) : EReal)
  rcases BitVec.eq_zero_or_eq_one c with h | h <;> subst h
  · have h1 : ((0#1 : BitVec 1).setWidth 32).toInt = 0 := by decide
    have h2 : (0#1 : BitVec 1).toNat = 0 := by decide
    rw [h1, h2]; simp
  · have h1 : ((1#1 : BitVec 1).setWidth 32).toInt = 1 := by decide
    have h2 : (1#1 : BitVec 1).toNat = 1 := by decide
    rw [h1, h2]; simp

/-- The gathered feature rows are the same array in both programs (the same operations on the same arguments). -/
theorem srcRows_eq (a0 : Vec Ideal Cert.KernelIdeal.S100000x768 .f32) (a7 : Vec Ideal Cert.KernelIdeal.S2x100000 .i32) :
    Cert.KernelIdeal.Stages.srcRows a0 a7 = Cert.ReferenceIdeal.Stages.srcRows a0 a7 := rfl

/-- The type column at (e, 0) is the type of edge e. -/
theorem tyCol_apply (a8 : Vec Ideal Cert.KernelIdeal.S100000 .i32) (e : Fin 100000) (u : Fin 1) :
    Cert.KernelIdeal.Stages.tyCol a8 (ix2 e u) = a8 (ix1 e) := by
  unfold Cert.KernelIdeal.Stages.tyCol
  exact Cert.Gcn.Lib.shapeCast_a_a1_apply a8 _ e u

/-- The first region's array of the gathered rows is the reference's message array. -/
theorem msgs_eq (a0 : Vec Ideal Cert.KernelIdeal.S100000x768 .f32) (a1 : Vec Ideal Cert.KernelIdeal.S5x768x768 .f32)
    (a2 : Vec Ideal Cert.KernelIdeal.S5x768 .f32) (a7 : Vec Ideal Cert.KernelIdeal.S2x100000 .i32)
    (a8 : Vec Ideal Cert.KernelIdeal.S100000 .i32) :
    Cert.KernelIdeal.Stages.G0 (Cert.KernelIdeal.Stages.srcRows a0 a7) (Cert.KernelIdeal.Stages.tyCol a8) a1 a2
      = Cert.ReferenceIdeal.Stages.msgsR (Cert.ReferenceIdeal.Stages.srcRows a0 a7) a1 a2 a8 := by
  funext i
  obtain ⟨e, j, rfl⟩ : ∃ (e : Fin 100000) (j : Fin 768), i = ix2 e j := ⟨i 0, i 1, eq_ix2 i⟩
  rw [Cert.KernelIdeal.Math0.G0_apply, Cert.ReferenceIdeal.Math0.msgsR_apply, srcRows_eq]
  simp only [tyCol_apply, ind_eq]

end Cert.Bridge0

end
-- ==== Proof.KMath1.lean ====
/-
  The second region's body at one entry: on a block of 400 nodes, entry (r, j) of the result is the normalisation,
  at column j, of the row h[r, ·] = nf[r, ·] + max (nf[r, ·] · W1ᵀ + agg[r, ·] · W2ᵀ + b, 0-word), scaled by g[j] and
  shifted by β[j].
-/
import proofs.«147601_j867583393905_2_alg».proof.Proof.KStages
import proofs.«147601_j867583393905_2_alg».proof.Proof.Spec
import proofs.«147601_j867583393905_2_alg».proof.Proof.LibRowsDot
import proofs.«147601_j867583393905_2_alg».proof.Proof.LibKeepdimsColumn
import Idealize.ShloMosaic.Lib.ValueLayout
import Idealize.ShloMosaic.Lib.Pipeline.Value

noncomputable section

open scoped BigOperators

namespace Cert.KernelIdeal.Math1

open Idealize.ShloMosaic Idealize.ShloMosaic.ValueIdx Cert.KernelIdeal Cert.KernelIdeal.Stages
open Cert.KernelIdeal.Facts₀

/-- The residual sum on a block: features plus the positive part of the two-product affine update. -/
def hidK (x0 x1 : Vec Ideal S400x768 .f32) (x2 x3 : Vec Ideal S768x768 .f32) (x4 : Vec Ideal S1x768 .f32) :
    FVec Ideal S400x768 .f32 :=
  addf x0
    (maximumf
      (addf
        (addf
          (matmul dot_S400x768_S768x768_S400x768_1_1_0_0_n_n none (truncf .bf16 x0 bitsLt_bf16_f32)
            (truncf .bf16 (shapeCast S768x768 x2 shapeCasts_S768x768_S768x768) bitsLt_bf16_f32) (constant S400x768 .f32 0x00000000#32))
          (matmul dot_S400x768_S768x768_S400x768_1_1_0_0_n_n none
            (truncf .bf16 (shapeCast S400x768 x1 shapeCasts_S400x768_S400x768) bitsLt_bf16_f32)
            (truncf .bf16 (shapeCast S768x768 x3 shapeCasts_S768x768_S768x768) bitsLt_bf16_f32) (constant S400x768 .f32 0x00000000#32)))
        (broadcastTo S400x768 (shapeCast S1x768 x4 shapeCasts_S1x768_S1x768) broadcasts_S1x768_S400x768))
      (broadcast S400x768 (Scalar.ofBits .f32 0x00000000#32)))

/-- The row means of a block, as a column. -/
def meanK (h : FVec Ideal S400x768 .f32) : FVec Ideal S400x1 .f32 :=
  divf (shapeCast S400x1 (multiReduction .add [1] S400 h 0x00000000#32 reduces_S400x768_S400 (.inl rfl) rfl) shapeCasts_S400_S400x1)
    (broadcast S400x1 (Scalar.ofBits .f32 0x44400000#32))

/-- The rows less their means. -/
def cenK (h : FVec Ideal S400x768 .f32) : FVec Ideal S400x768 .f32 :=
  subf h (broadcastTo S400x768 (meanK h) broadcasts_S400x1_S400x768)

/-- The normalised rows. -/
def normK (h : FVec Ideal S400x768 .f32) : FVec Ideal S400x768 .f32 :=
  mulf (cenK h)
    (broadcastTo S400x768
      (rsqrt
        (addf
          (divf
            (shapeCast S400x1
              (multiReduction .add [1] S400 (mulf (cenK h) (cenK h)) 0x00000000#32 reduces_S400x768_S400 (.inl rfl) rfl)
              shapeCasts_S400_S400x1)
            (broadcast S400x1 (Scalar.ofBits .f32 0x44400000#32)))
          (broadcast S400x1 (Scalar.ofBits .f32 0x3727C5AC#32))))
      broadcasts_S400x1_S400x768)

theorem pay2_eq (x0 x1 : Vec Ideal S400x768 .f32) (x2 x3 : Vec Ideal S768x768 .f32) (x4 : Vec Ideal S1x768 .f32) :
    Gen.k1_pay2 x0 x1 x2 x3 x4 = normK (hidK x0 x1 x2 x3 x4) := rfl

theorem dot_eq : dot_S400x768_S768x768_S400x768_1_1_0_0_n_n = DotDims.transposedRhs 400 768 768 := rfl

theorem hidK_apply (x0 x1 : Vec Ideal S400x768 .f32) (x2 x3 : Vec Ideal S768x768 .f32) (x4 : Vec Ideal S1x768 .f32)
    (r : Fin 400) (j : Fin 768) :
    hidK x0 x1 x2 x3 x4 (ix2 r j)
      = Cert.Spec.hid2 (fun k => x0 (ix2 r k)) (fun k => x1 (ix2 r k)) (fun j k => x2 (ix2 j k)) (fun j k => x3 (ix2 j k))
          (fun j => x4 (ix2 (0 : Fin 1) j)) j := by
  unfold hidK Cert.Spec.hid2
  rw [addf_apply, maximumf_apply, addf_apply, addf_apply]
  refine congrArg (x0 (ix2 r j) + ·) (congrArg₂ max (congrArg₂ (· + ·) (congrArg₂ (· + ·) ?_ ?_) ?_) rfl)
  · refine (Cert.RowsDot.matmul_zero_at_of_eq _ dot_eq _ _ r j).trans ?_
    simp only [truncf_apply, shapeCast_self]
  · refine (Cert.RowsDot.matmul_zero_at_of_eq _ dot_eq _ _ r j).trans ?_
    simp only [truncf_apply, shapeCast_self]
  · rw [broadcastTo_1b_ab_apply _ broadcasts_S1x768_S400x768 r j, shapeCast_self]

theorem meanK_apply (h : FVec Ideal S400x768 .f32) (r : Fin 400) (u : Fin 1) :
    meanK h (ix2 r u) = Ideal.div (∑ k : Fin 768, h (ix2 r k)) (Ideal.ofBits .f32 0x44400000#32) := by
  unfold meanK
  rw [divf_apply, Cert.Gcn.Lib.shapeCast_a_a1_apply _ shapeCasts_S400_S400x1 r u]
  refine congrArg₂ Ideal.div ?_ rfl
  exact Cert.Gcn.Lib.rowsum_apply h _ _ _ r

theorem cenK_apply (h : FVec Ideal S400x768 .f32) (r : Fin 400) (j : Fin 768) :
    cenK h (ix2 r j) = h (ix2 r j) - Ideal.div (∑ k : Fin 768, h (ix2 r k)) (Ideal.ofBits .f32 0x44400000#32) := by
  unfold cenK
  rw [subf_apply, Cert.Gcn.Lib.broadcastTo_a1_ab_apply _ broadcasts_S400x1_S400x768 r j, meanK_apply]

theorem normK_apply (h : FVec Ideal S400x768 .f32) (r : Fin 400) (j : Fin 768) (g β : EReal) :
    normK h (ix2 r j) * g + β
      = Cert.Spec.norm (Ideal.ofBits .f32 0x44400000#32) (Ideal.ofBits .f32 0x3727C5AC#32) (fun k => h (ix2 r k)) g β j := by
  unfold normK Cert.Spec.norm
  rw [mulf_apply, Cert.Gcn.Lib.broadcastTo_a1_ab_apply _ broadcasts_S400x1_S400x768 r j, cenK_apply]
  refine congrArg (fun z : EReal => z * g + β)
    (congrArg (fun z : EReal => (h (ix2 r j) - Ideal.div (∑ k : Fin 768, h (ix2 r k)) (Ideal.ofBits .f32 0x44400000#32)) * z) ?_)
  show Ideal.rsqrt (Ideal.div (shapeCast S400x1 _ shapeCasts_S400_S400x1 (ix2 r (0 : Fin 1))) (Ideal.ofBits .f32 0x44400000#32)
      + Ideal.ofBits .f32 0x3727C5AC#32) = _
  rw [Cert.Gcn.Lib.shapeCast_a_a1_apply _ shapeCasts_S400_S400x1 r (0 : Fin 1)]
  refine congrArg (fun s => Ideal.rsqrt (Ideal.div s _ + _)) ?_
  refine (Cert.Gcn.Lib.rowsum_apply _ _ _ _ r).trans ?_
  refine Finset.sum_congr rfl fun k _ => ?_
  rw [mulf_apply, cenK_apply]

/-- The body's result on a block, at entry (r, j). -/
theorem pay1_apply (x0 x1 : Vec Ideal S400x768 .f32) (x2 x3 : Vec Ideal S768x768 .f32) (x4 x5 x6 : Vec Ideal S1x768 .f32)
    (r : Fin 400) (j : Fin 768) :
    pay1 x0 x1 x2 x3 x4 x5 x6 (ix2 r j)
      = Cert.Spec.norm (Ideal.ofBits .f32 0x44400000#32) (Ideal.ofBits .f32 0x3727C5AC#32)
          (Cert.Spec.hid2 (fun k => x0 (ix2 r k)) (fun k => x1 (ix2 r k)) (fun j k => x2 (ix2 j k)) (fun j k => x3 (ix2 j k))
            (fun j => x4 (ix2 (0 : Fin 1) j)))
          (x5 (ix2 (0 : Fin 1) j)) (x6 (ix2 (0 : Fin 1) j)) j := by
  unfold pay1 Gen.k1_pay1 Gen.k1_pay3
  rw [pay2_eq, addf_apply, mulf_apply, broadcastTo_1b_ab_apply _ broadcasts_S1x768_S400x768 r j,
    broadcastTo_1b_ab_apply _ broadcasts_S1x768_S400x768 r j, shapeCast_self, shapeCast_self, normK_apply]
  simp only [hidK_apply]

/-- Row n of a tall array is row n mod 400 of its block n / 400. -/
theorem rows400_at (X : Vec Ideal S100000x768 .f32) (n : Fin 100000) (k : Fin 768) (h1 : n.val / 400 < 250)
    (h2 : n.val % 400 < 400) :
    rows400 (F := Ideal) (e := .f32) X ⟨n.val / 400, h1⟩ (ix2 (⟨n.val % 400, h2⟩ : Fin 400) k) = X (ix2 n k) := by
  unfold rows400
  refine congrArg X (congrArg (fun a : Fin 100000 => ix2 a k) (Fin.ext ?_))
  show 400 * (n.val / 400) + n.val % 400 = n.val
  exact Nat.div_add_mod n.val 400

/-- The second region's array at (n, j): the normalisation of node n's residual row. -/
theorem G1_apply (NF AG : Vec Ideal S100000x768 .f32) (W1 W2 : Vec Ideal S768x768 .f32) (b g be : Vec Ideal S1x768 .f32)
    (n : Fin 100000) (j : Fin 768) :
    G1 NF AG W1 W2 b g be (ix2 n j)
      = Cert.Spec.norm (Ideal.ofBits .f32 0x44400000#32) (Ideal.ofBits .f32 0x3727C5AC#32)
          (Cert.Spec.hid2 (fun k => NF (ix2 n k)) (fun k => AG (ix2 n k)) (fun j k => W1 (ix2 j k)) (fun j k => W2 (ix2 j k))
            (fun j => b (ix2 (0 : Fin 1) j)))
          (g (ix2 (0 : Fin 1) j)) (be (ix2 (0 : Fin 1) j)) j := by
  have h1 : n.val / 400 < 250 := by have := n.isLt; omega
  have h2 : n.val % 400 < 400 := Nat.mod_lt _ (by norm_num)
  show pay1 (rows400 (e := .f32) NF ⟨n.val / 400, h1⟩) (rows400 (e := .f32) AG ⟨n.val / 400, h1⟩) W1 W2 b g be
      (ix2 (⟨n.val % 400, h2⟩ : Fin 400) j) = _
  rw [pay1_apply]
  simp only [rows400_at]

end Cert.KernelIdeal.Math1

end
-- ==== Proof.RMath1.lean ====
/-
  The reference's update at one entry: entry (n, j) is the normalisation, at column j, of the row
  h[n, ·] = nf[n, ·] + max ([nf | agg][n, ·] · W_updᵀ + b, 0-word), scaled by g[j] and shifted by β[j]; the variance's
  divisor 768 − 0 is 768 and is positive, so the guarded quotient is the quotient.
-/
import proofs.«147601_j867583393905_2_alg».proof.Proof.RefStages
import proofs.«147601_j867583393905_2_alg».proof.Proof.Spec
import proofs.«147601_j867583393905_2_alg».proof.Proof.LibPlainDot
import proofs.«147601_j867583393905_2_alg».proof.Proof.LibBcastChain
import Idealize.ShloMosaic.Lib.ValueLayout
import Idealize.ShloMosaic.Lib.Pipeline.Value

noncomputable section

open scoped BigOperators

namespace Cert.ReferenceIdeal.Math1

open Idealize.ShloMosaic Idealize.ShloMosaic.ValueIdx Cert.ReferenceIdeal Cert.ReferenceIdeal.Stages
open Cert.ReferenceIdeal.Facts₀ Cert.Lib.BcastChain

/-- The word 0x44400000 denotes the real 768. -/
theorem ofBits_768 : Ideal.ofBits .f32 0x44400000#32 = ((768 : ℝ) : EReal) := by
  simp [Ideal.ofBits, Ideal.ieee, -EReal.coe_mul]; norm_num

theorem zeros_apply (i : S100000x768.Idx) : zeros (F := Ideal) i = Ideal.ofBits .f32 0x00000000#32 := by
  unfold zeros; rw [overAll_apply]; rfl

/-- A column spread over the columns reads, at (n, j), the column at (n, 0). -/
theorem overCols1_apply (d : Vec Ideal S100000x1 .f32) (n : Fin 100000) (j : Fin 768) :
    overCols d (ix2 n j) = d (ix2 n (0 : Fin 1)) := by
  unfold overCols
  exact broadcastInDim_apply ![0, 1] bcast_S100000x1_S100000x768_0_1 d (ix2 n j) (ix2 n (0 : Fin 1)) (fun a => by
    match a with
    | ⟨0, _⟩ =>
      show n.val = if (100000 : ℕ) = 1 then 0 else n.val
      rw [if_neg (by norm_num)]
    | ⟨1, _⟩ => show 0 = if (1 : ℕ) = 1 then 0 else j.val; rw [if_pos rfl])

theorem colOf_apply (v : Vec Ideal S_ .f32) (i : S100000x1.Idx) : colOf v i = v ix0 := by
  unfold colOf; rw [overAll_apply]

/-- The row sums, from the zero word, at (n, u): the sum of row n. -/
theorem rowSum_apply (h : Vec Ideal S100000x768 .f32) (n : Fin 100000) (u : Fin 1) :
    rowSum h (ix2 n u) = ∑ k : Fin 768, h (ix2 n k) := by
  unfold rowSum
  rw [broadcastInDim_apply ![0] bcast_S100000_S100000x1_0 _ (ix2 n u) (ix1 n) (fun a => by
    match a with
    | ⟨0, _⟩ =>
      show n.val = if (100000 : ℕ) = 1 then 0 else n.val
      rw [if_neg (by norm_num)])]
  have hr : S100000x768.Reduces [1] S100000 := by decide
  show Ideal.hostReduceAdd reducesTo_S100000x768_S100000_d1 h (Ideal.ofBits .f32 0x00000000#32) (ix1 n) = _
  rw [Ideal.hostReduceAdd_single _ hr, Ideal.ofBits_zero_f32, zero_add]
  refine Finset.sum_congr rfl fun k _ => congrArg h ?_
  funext d
  apply Fin.ext
  match d with
  | ⟨0, _⟩ => rfl
  | ⟨1, _⟩ => rfl

theorem meanR_apply (h : Vec Ideal S100000x768 .f32) (n : Fin 100000) (u : Fin 1) :
    meanR h (ix2 n u) = Ideal.div (∑ k : Fin 768, h (ix2 n k)) (Ideal.ofBits .f32 0x44400000#32) := by
  unfold meanR
  show Ideal.div (rowSum h (ix2 n u)) (colOf (F := Ideal) _ (ix2 n u)) = _
  rw [rowSum_apply, colOf_apply]; rfl

/-- The variance's divisor is the real 768. -/
theorem ddofR_val : ddofR (F := Ideal) ix0 = Ideal.ofBits .f32 0x44400000#32 := by
  unfold ddofR
  show Ideal.ofBits .f32 0x44400000#32 - (((0#32 : BitVec 32).toInt : ℝ) : EReal) = _
  have h0 : (0#32 : BitVec 32).toInt = 0 := by decide
  rw [h0]; simp

theorem varR_apply (h : Vec Ideal S100000x768 .f32) (n : Fin 100000) (u : Fin 1) :
    varR h (ix2 n u)
      = Ideal.div (∑ k : Fin 768, (h (ix2 n k) - Ideal.div (∑ k : Fin 768, h (ix2 n k)) (Ideal.ofBits .f32 0x44400000#32))
            * (h (ix2 n k) - Ideal.div (∑ k : Fin 768, h (ix2 n k)) (Ideal.ofBits .f32 0x44400000#32)))
          (Ideal.ofBits .f32 0x44400000#32) := by
  unfold varR
  rw [select_apply, overAll_apply]
  have hc : cmpf (F := Ideal) .ogt (ddofR (F := Ideal)) (constant S_ .f32 0x00000000#32) ix0 = 1#1 := by
    show Ideal.cmp .ogt (ddofR (F := Ideal) ix0) (Ideal.ofBits .f32 0x00000000#32) = 1#1
    rw [ddofR_val, ofBits_768, Ideal.ofBits_zero_f32]
    unfold Ideal.cmp
    have : (0 : EReal) < ((768 : ℝ) : EReal) := by exact_mod_cast (by norm_num : (0 : ℝ) < 768)
    simp [this]
  rw [hc, select_one]
  show Ideal.div (rowSum (F := Ideal) _ (ix2 n u)) (colOf (F := Ideal) _ (ix2 n u)) = _
  rw [rowSum_apply, colOf_apply, ddofR_val]
  refine congrArg (Ideal.div · _) (Finset.sum_congr rfl fun k _ => ?_)
  rw [mulf_apply, subf_apply, overCols1_apply, meanR_apply]

theorem normR_apply (h : Vec Ideal S100000x768 .f32) (a5 a6 : Vec Ideal S768 .f32) (n : Fin 100000) (j : Fin 768) :
    normR h a5 a6 (ix2 n j)
      = Cert.Spec.norm (Ideal.ofBits .f32 0x44400000#32) (Ideal.ofBits .f32 0x3727C5AC#32) (fun k => h (ix2 n k))
          (a5 (ix1 j)) (a6 (ix1 j)) j := by
  unfold normR Cert.Spec.norm
  rw [addf_apply, mulf_apply, mulf_apply, subf_apply, overCols1_apply, overCols1_apply, meanR_apply]
  unfold overRows
  rw [overRows_apply (n := 100000) (c := 768), overRows_apply (n := 100000) (c := 768)]
  show _ * Ideal.rsqrt (varR h (ix2 n (0 : Fin 1)) + colOf (F := Ideal) _ (ix2 n (0 : Fin 1))) * _ + _ = _
  rw [varR_apply, colOf_apply]
  rfl

theorem dot_eq : dot_S100000x1536_S1536x768_S100000x768_1_0_0_1_n_n = DotDims.plain 100000 1536 768 := rfl

theorem hidR_apply (a0 agg : Vec Ideal S100000x768 .f32) (a3 : Vec Ideal S768x1536 .f32) (a4 : Vec Ideal S768 .f32)
    (n : Fin 100000) (j : Fin 768) :
    hidR a0 agg a3 a4 (ix2 n j)
      = Cert.Spec.hid1 (fun k => a0 (ix2 n k))
          (fun k => concatenate S100000x1536 1 [⟨S100000x768, a0⟩, ⟨S100000x768, agg⟩]
            concatenates_S100000x768_S100000x768_S100000x1536_d1 (ix2 n k))
          (fun j k => a3 (ix2 j k)) (fun j => a4 (ix1 j)) j := by
  unfold hidR Cert.Spec.hid1
  rw [addf_apply, maximumf_apply, addf_apply, zeros_apply]
  refine congrArg (a0 (ix2 n j) + ·) (congrArg₂ max (congrArg₂ (· + ·) ?_ ?_) rfl)
  · show FloatOps.dotGeneral (F := Ideal) (φ₁ := .f32) (φ₂ := .f32) dot_S100000x1536_S1536x768_S100000x768_1_0_0_1_n_n none .single _ _ (ix2 n j) = _
    rw [Cert.Lib.PlainDot.dotGeneral_eq _ dot_eq, Cert.Lib.PlainDot.rowsByCols_apply]
    refine Finset.sum_congr rfl fun k _ => congrArg (_ * ·) ?_
    exact transpose_ix2_apply a3 transposes_S768x1536_S1536x768_1_0 k j
  · unfold overRows
    rw [overRows_apply (n := 100000) (c := 768)]

end Cert.ReferenceIdeal.Math1

end
-- ==== Proof.Bridge1.lean ====
/-
  The two programs' updates are one function of the node features, the aggregated messages and the parameters:
  at every entry both are the normalisation of the same residual row — the kernel forms the affine update from two
  products with the two halves of the update matrix, the reference from one product of the concatenated row
  [features | aggregate] with the whole matrix, and a sum over 1536 positions is the sum of its two halves.
-/
import proofs.«147601_j867583393905_2_alg».proof.Proof.KMath1
import proofs.«147601_j867583393905_2_alg».proof.Proof.RMath1

noncomputable section

open scoped BigOperators

namespace Cert.Bridge1

open Idealize.ShloMosaic Idealize.ShloMosaic.ValueIdx

/-- A vector as one row reads, at (0, j), its entry j. -/
theorem rowK_apply (a : Vec Ideal Cert.KernelIdeal.S768 .f32) (u : Fin 1) (j : Fin 768) :
    Cert.KernelIdeal.Stages.rowK a (ix2 u j) = a (ix1 j) := by
  unfold Cert.KernelIdeal.Stages.rowK
  exact shapeCast_a_1a_apply a _ u j

/-- The left half of the update matrix at (j, k) is the matrix at (j, k). -/
theorem w1K_apply (a3 : Vec Ideal Cert.KernelIdeal.S768x1536 .f32) (j k : Fin 768) :
    Cert.KernelIdeal.Stages.w1K a3 (ix2 j k) = a3 (ix2 j (⟨k.val, by omega⟩ : Fin 1536)) := by
  unfold Cert.KernelIdeal.Stages.w1K
  exact slice2_axis1_apply 0 a3 _ j k _ (Nat.zero_add _).symm

/-- The right half at (j, k) is the matrix at (j, 768 + k). -/
theorem w2K_apply (a3 : Vec Ideal Cert.KernelIdeal.S768x1536 .f32) (j k : Fin 768) :
    Cert.KernelIdeal.Stages.w2K a3 (ix2 j k) = a3 (ix2 j (⟨768 + k.val, by omega⟩ : Fin 1536)) := by
  unfold Cert.KernelIdeal.Stages.w2K
  exact slice2_axis1_apply 768 a3 _ j k _ rfl

/-- The concatenated row's first half is the feature row. -/
theorem cat_left (a0 agg : Vec Ideal Cert.ReferenceIdeal.S100000x768 .f32) (n : Fin 100000) (k : Fin 768) :
    concatenate Cert.ReferenceIdeal.S100000x1536 1 [⟨Cert.ReferenceIdeal.S100000x768, a0⟩, ⟨Cert.ReferenceIdeal.S100000x768, agg⟩]
        Cert.ReferenceIdeal.Facts₀.concatenates_S100000x768_S100000x768_S100000x1536_d1 (ix2 n (⟨k.val, by omega⟩ : Fin 1536))
      = a0 (ix2 n k) :=
  concatenate_pair_apply_left (t := Cert.ReferenceIdeal.S100000x1536) (s₁ := Cert.ReferenceIdeal.S100000x768)
    (s₂ := Cert.ReferenceIdeal.S100000x768) (1 : Fin 2) a0 agg
    Cert.ReferenceIdeal.Facts₀.concatenates_S100000x768_S100000x768_S100000x1536_d1
    (ix2 n (⟨k.val, by omega⟩ : Fin 1536)) rfl (ix2 n k) (fun b => by
    match b with
    | ⟨0, _⟩ => rfl
    | ⟨1, _⟩ => rfl)

/-- Its second half is the aggregate row. -/
theorem cat_right (a0 agg : Vec Ideal Cert.ReferenceIdeal.S100000x768 .f32) (n : Fin 100000) (k : Fin 768) :
    concatenate Cert.ReferenceIdeal.S100000x1536 1 [⟨Cert.ReferenceIdeal.S100000x768, a0⟩, ⟨Cert.ReferenceIdeal.S100000x768, agg⟩]
        Cert.ReferenceIdeal.Facts₀.concatenates_S100000x768_S100000x768_S100000x1536_d1 (ix2 n (⟨768 + k.val, by omega⟩ : Fin 1536))
      = agg (ix2 n k) :=
  concatenate_pair_apply_right (t := Cert.ReferenceIdeal.S100000x1536) (s₁ := Cert.ReferenceIdeal.S100000x768)
    (s₂ := Cert.ReferenceIdeal.S100000x768) (1 : Fin 2) a0 agg
    Cert.ReferenceIdeal.Facts₀.concatenates_S100000x768_S100000x768_S100000x1536_d1
    (ix2 n (⟨768 + k.val, by omega⟩ : Fin 1536)) rfl rfl (ix2 n k) (fun b hb => by
    match b with
    | ⟨0, _⟩ => rfl
    | ⟨1, _⟩ => exact absurd rfl hb) (by show k.val + 768 = 768 + k.val; omega)

/-- The second region's array of (features, aggregate, the matrix halves, the three rows) is the reference's update. -/
theorem upd_eq (a0 agg : Vec Ideal Cert.KernelIdeal.S100000x768 .f32) (a3 : Vec Ideal Cert.KernelIdeal.S768x1536 .f32)
    (a4 a5 a6 : Vec Ideal Cert.KernelIdeal.S768 .f32) :
    Cert.KernelIdeal.Stages.G1 a0 agg (Cert.KernelIdeal.Stages.w1K a3) (Cert.KernelIdeal.Stages.w2K a3)
        (Cert.KernelIdeal.Stages.rowK a4) (Cert.KernelIdeal.Stages.rowK a5) (Cert.KernelIdeal.Stages.rowK a6)
      = Cert.ReferenceIdeal.Stages.tailR a0 agg a3 a4 a5 a6 := by
  funext i
  obtain ⟨n, j, rfl⟩ : ∃ (n : Fin 100000) (j : Fin 768), i = ix2 n j := ⟨i 0, i 1, eq_ix2 i⟩
  rw [Cert.KernelIdeal.Math1.G1_apply]
  unfold Cert.ReferenceIdeal.Stages.tailR
  rw [Cert.ReferenceIdeal.Math1.normR_apply, rowK_apply, rowK_apply]
  refine congrArg (fun h => Cert.Spec.norm _ _ h (a5 (ix1 j)) (a6 (ix1 j)) j) ?_
  have hb : (fun j : Fin 768 => Cert.KernelIdeal.Stages.rowK a4 (ix2 (0 : Fin 1) j)) = fun j => a4 (ix1 j) :=
    funext fun j => rowK_apply a4 0 j
  rw [hb]
  refine Eq.trans ?_ (funext fun k => (Cert.ReferenceIdeal.Math1.hidR_apply a0 agg a3 a4 n k).symm)
  exact (Cert.Spec.hid1_eq_hid2 _ _ _ _ _ _ _ (cat_left a0 agg n) (cat_right a0 agg n)
    (fun j k => (w1K_apply a3 j k).symm) (fun j k => (w2K_apply a3 j k).symm)).symm

/-- The aggregates scattered from one message array by the same target indices are one array. -/
theorem agg_eq (msgs : Vec Ideal Cert.KernelIdeal.S100000x768 .f32) (a7 : Vec Ideal Cert.KernelIdeal.S2x100000 .i32) :
    Cert.KernelIdeal.Stages.aggK msgs a7 = Cert.ReferenceIdeal.Stages.aggR msgs a7 := rfl

end Cert.Bridge1

end
-- ==== Proof.lean ====
/-
  The certificate of a message-passing layer: a row gather of the node features along the edges, per edge the sum
  over five relation types of the masked affine message (x · W_tᵀ + b_t) · [type = t], a scatter-add of the messages
  into the target nodes, and the update LayerNorm (nf + max ([nf | agg] · W_updᵀ + b, 0)) with scale and shift.

  The kernel program computes the messages in a tiled region (blocks of 1000 edges, an accumulator added to type
  by type) and the update in a second tiled region (blocks of 400 nodes, the product with W_upd split into its
  two halves); the reference computes both on whole arrays.  At the exact values the two results are one function
  of the nine argument arrays:  entry by entry the messages are the same five-term sum (the indicator of a type,
  read signed from a widened bit or unsigned from the bit, is 0 or 1 either way), the scatter-add is the same
  operation of equal operands, and a node's update is the normalisation of the same residual row, a sum over
  1536 positions being the sum of its two halves.  No finiteness of the inputs is used: only commutativity and
  associativity of the extended reals' addition.

  The three frames: the two kernel programs' by the generated frame certificates, the reference's by its run
  with the result dropped.  The idealization rewrote nothing, so that conjunct is trivial.
-/
import proofs.«147601_j867583393905_2_alg».proof.Defs
import proofs.«147601_j867583393905_2_alg».proof.Proof.Gen.Kernel
import proofs.«147601_j867583393905_2_alg».proof.Proof.Gen.Kernel.Frame
import proofs.«147601_j867583393905_2_alg».proof.Proof.Gen.KernelIdeal
import proofs.«147601_j867583393905_2_alg».proof.Proof.Gen.KernelIdeal.Frame
import proofs.«147601_j867583393905_2_alg».proof.Proof.Gen.ReferenceIdeal
import proofs.«147601_j867583393905_2_alg».proof.Proof.Gen.Pre_finite_inputs
import proofs.«147601_j867583393905_2_alg».proof.Proof.KRun
import proofs.«147601_j867583393905_2_alg».proof.Proof.RefRun
import proofs.«147601_j867583393905_2_alg».proof.Proof.Bridge0
import proofs.«147601_j867583393905_2_alg».proof.Proof.Bridge1
import Idealize.ShloMosaic.Adequacy
import Idealize.ShloMosaic.Init

noncomputable section

namespace Cert.Proof

open Idealize.ShloMosaic Idealize.SL.Sem

/-- The two programs' results are one function of the nine argument arrays. -/
theorem result_eq (a0 : Vec Ideal Cert.KernelIdeal.S100000x768 .f32) (a1 : Vec Ideal Cert.KernelIdeal.S5x768x768 .f32)
    (a2 : Vec Ideal Cert.KernelIdeal.S5x768 .f32) (a3 : Vec Ideal Cert.KernelIdeal.S768x1536 .f32)
    (a4 a5 a6 : Vec Ideal Cert.KernelIdeal.S768 .f32) (a7 : Vec Ideal Cert.KernelIdeal.S2x100000 .i32)
    (a8 : Vec Ideal Cert.KernelIdeal.S100000 .i32) :
    Cert.KernelIdeal.Stages.outK a0 a1 a2 a3 a4 a5 a6 a7 a8 = Cert.ReferenceIdeal.Stages.outR a0 a1 a2 a3 a4 a5 a6 a7 a8 := by
  unfold Cert.KernelIdeal.Stages.outK Cert.ReferenceIdeal.Stages.outR
  rw [Cert.Bridge1.upd_eq, Cert.Bridge0.msgs_eq, Cert.Bridge1.agg_eq]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories agreeing on the arguments both programs run and end with the one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
